-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1024 : Shape := ⟨2, ![1024, 1024]⟩
abbrev S1024 : Shape := ⟨1, ![1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S16x1024x1024 .f32) (main_arg1 : FVec F S16x1024x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S16x1024x1024 : Shape := ⟨3, ![16, 1024, 1024]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩

abbrev nBuf : Space → Nat
  | .hbm => 21
  | .vmem => 15
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S16x1024x1024, .bf16⟩
  | .hbm, ⟨9, _⟩ => ⟨S16x1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S16x1024x1024, .f32⟩
  | .hbm, ⟨20, _⟩ => ⟨S16x1024x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1024x1024, .bf16⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v22 : BitVec 32 := Scalar.addi c0_i32 c8_i32
  let c1_i32 : BitVec 32 := 1#32
  ⟨c0_i32, v22, c1_i32⟩
def k0_mult1 (k0_t1 : Fin k0_t1_loop.trips) : BitVec 32 :=
  let c0_i32_26 : BitVec 32 := 0#32
  let c0_i32 : BitVec 32 := 0#32
  let c1_i32 : BitVec 32 := 1#32
  let arg12 : BitVec 32 := Scf.iv c0_i32 c1_i32 k0_t1
  let c1_i32_25 : BitVec 32 := 1#32
  let v30 : BitVec 32 := Scalar.muli arg12 c1_i32_25
  let v31 : BitVec 32 := Scalar.addi c0_i32_26 v30
  let c128_i32 : BitVec 32 := 128#32
  let v32 : BitVec 32 := Scalar.muli v31 c128_i32
  v32
def k0_off1 (k0_t1 : Fin k0_t1_loop.trips) : Fin 3 → Nat :=
  let c0_27 : Index := 0#32
  let c0_i32_26 : BitVec 32 := 0#32
  let c0_i32 : BitVec 32 := 0#32
  let c1_i32 : BitVec 32 := 1#32
  let arg12 : BitVec 32 := Scf.iv c0_i32 c1_i32 k0_t1
  let c1_i32_25 : BitVec 32 := 1#32
  let v30 : BitVec 32 := Scalar.muli arg12 c1_i32_25
  let v31 : BitVec 32 := Scalar.addi c0_i32_26 v30
  let c128_i32 : BitVec 32 := 128#32
  let v32 : BitVec 32 := Scalar.muli v31 c128_i32
  let v33 : BitVec 32 := v32
  let v34 : Index := Scalar.indexCast v33
  let c0_28 : Index := 0#32
  ![0, v34.toNat, 0]
def k0_off2 (k0_t1 : Fin k0_t1_loop.trips) : Fin 2 → Nat :=
  let c0_i32_26 : BitVec 32 := 0#32
  let c0_i32 : BitVec 32 := 0#32
  let c1_i32 : BitVec 32 := 1#32
  let arg12 : BitVec 32 := Scf.iv c0_i32 c1_i32 k0_t1
  let c1_i32_25 : BitVec 32 := 1#32
  let v30 : BitVec 32 := Scalar.muli arg12 c1_i32_25
  let v31 : BitVec 32 := Scalar.addi c0_i32_26 v30
  let c128_i32 : BitVec 32 := 128#32
  let v32 : BitVec 32 := Scalar.muli v31 c128_i32
  let v33 : BitVec 32 := v32
  let v59 : Index := Scalar.indexCast v33
  let c0_37 : Index := 0#32
  ![v59.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  h_S1x128x1024 : 0 < S1x128x1024.numel
  shapeCasts_S1x128x1024_S128x1024 : S1x128x1024.ShapeCasts S128x1024
  broadcasts_S1x1024_S128x1024 : S1x1024.Broadcasts S128x1024
  reduces_S128x1024_S128 : S128x1024.Reduces [1] S128
  shapeCasts_S128_S128x1 : S128.ShapeCasts S128x1
  broadcasts_S128x1_S128x1024 : S128x1.Broadcasts S128x1024
  shapeCasts_S128x1024_S1x128x1024 : S128x1024.ShapeCasts S1x128x1024
  h_S128x1024 : 0 < S128x1024.numel
  shapeCasts_S128x1024_S128x1024 : S128x1024.ShapeCasts S128x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S128x1024_S1024x1024_S128x1024_1_0_0_1_n_n_wf : DotDims.WF S128x1024 S1024x1024 S128x1024 [1] [0] [0] [1] [] []
  dot_S128x1024_S1024x1024_S128x1024_1_1_0_0_n_n_wf : DotDims.WF S128x1024 S1024x1024 S128x1024 [1] [1] [0] [0] [] []
  dot_S1024x1024_S1024x1024_S1024x1024_0_0_1_1_n_n_wf : DotDims.WF S1024x1024 S1024x1024 S1024x1024 [0] [0] [1] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x1024.size a ≤ S1x1024x1024.size a
  k0_off2_inb : ∀ k0_t1 : Fin k0_t1_loop.trips, ∀ a, (k0_off2 k0_t1) a + S128x1024.size a ≤ S1024x1024.size a
  k0_off2_packedbf16 : ∀ k0_t1 : Fin k0_t1_loop.trips, (Rect.unit (s := S1024x1024) (k0_off2 k0_t1) S128x1024.size (k0_off2_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .bf16 = 32 ∨ (Rect.block (s := S16x1024x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .bf16 = 32 ∨ (Rect.block (s := S16x1024x1024) S1x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x1024.size a ≤ S16x1024x1024.size a
  hwx0_8 : ∀ i : grid0.Coords, EltTy.bits .f32 = 32 ∨ (Rect.block (s := S16x1024x1024) S1x1024x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x1024.size a ≤ S16x1024x1024.size a
  hwx0_9 : ∀ i : grid0.Coords, EltTy.bits .f32 = 32 ∨ (Rect.block (s := S16x1024x1024) S1x1024x1024.size (cc0_transform_9 i) (hinb0_9 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11_0) S1x1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_1) S1x1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 41
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S16x1024x1024, .f32⟩
  | .hbm, ⟨9, _⟩ => ⟨S1x1x1024, .f32⟩
  | .hbm, ⟨10, _⟩ => ⟨S16x1024x1024, .f32⟩
  | .hbm, ⟨11, _⟩ => ⟨S16x1024x1024, .f32⟩
  | .hbm, ⟨12, _⟩ => ⟨S16x1024x1024, .f32⟩
  | .hbm, ⟨13, _⟩ => ⟨S1x1x1024, .f32⟩
  | .hbm, ⟨14, _⟩ => ⟨S16x1024x1024, .f32⟩
  | .hbm, ⟨15, _⟩ => ⟨S16x1024x1024, .f32⟩
  | .hbm, ⟨16, _⟩ => ⟨S16x1024x1024, .f32⟩
  | .hbm, ⟨17, _⟩ => ⟨S1x1x1024, .f32⟩
  | .hbm, ⟨18, _⟩ => ⟨S16x1024x1024, .f32⟩
  | .hbm, ⟨19, _⟩ => ⟨S16x1024x1024, .f32⟩
  | .hbm, ⟨20, _⟩ => ⟨S16x1024x1024, .f32⟩
  | .hbm, ⟨21, _⟩ => ⟨S_, .f32⟩
  | .hbm, ⟨22, _⟩ => ⟨S_, .f32⟩
  | .hbm, ⟨23, _⟩ => ⟨S16x1024x1024, .f32⟩
  | .hbm, ⟨24, _⟩ => ⟨S16x1024x1024, .f32⟩
  | .hbm, ⟨25, _⟩ => ⟨S_, .f32⟩
  | .hbm, ⟨26, _⟩ => ⟨S16x1024, .f32⟩
  | .hbm, ⟨27, _⟩ => ⟨S_, .f32⟩
  | .hbm, ⟨28, _⟩ => ⟨S16x1024, .f32⟩
  | .hbm, ⟨29, _⟩ => ⟨S16x1024, .f32⟩
  | .hbm, ⟨30, _⟩ => ⟨S16x1024x1, .f32⟩
  | .hbm, ⟨31, _⟩ => ⟨S16x1024x1024, .f32⟩
  | .hbm, ⟨32, _⟩ => ⟨S16x1024x1024, .f32⟩
  | .hbm, ⟨33, _⟩ => ⟨S16x1024x1024, .f32⟩
  | .hbm, ⟨34, _⟩ => ⟨S_, .f32⟩
  | .hbm, ⟨35, _⟩ => ⟨S16x1024, .f32⟩
  | .hbm, ⟨36, _⟩ => ⟨S16x1024x1, .f32⟩
  | .hbm, ⟨37, _⟩ => ⟨S16x1024x1024, .f32⟩
  | .hbm, ⟨38, _⟩ => ⟨S16x1024x1024, .f32⟩
  | .hbm, ⟨39, _⟩ => ⟨S16x1024x1024, .f32⟩
  | .hbm, ⟨40, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  bcast_S_S16x1024x1024 : S_.BroadcastsInDim S16x1024x1024 (![] : Fin 0 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  dot_S16x1024x1024_S1024x1024_S16x1024x1024_2_1_01_0_n_n_wf : DotDims.WF S16x1024x1024 S1024x1024 S16x1024x1024 [2] [1] [0, 1] [0] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]
  dot_S16x1024x1024_S16x1024x1024_S16x1024x1024_1_1_2_2_0_0_wf : DotDims.WF S16x1024x1024 S16x1024x1024 S16x1024x1024 [1] [1] [2] [2] [0] [0]

variable [Facts₀]

def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf
def dot_S16x1024x1024_S16x1024x1024_S16x1024x1024_1_1_2_2_0_0 : DotDims S16x1024x1024 S16x1024x1024 S16x1024x1024 where
  lhsContracting := [1]
  rhsContracting := [1]
  lhsNonContracting := [2]
  rhsNonContracting := [2]
  lhsBatch := [0]
  rhsBatch := [0]
  wf := dot_S16x1024x1024_S16x1024x1024_S16x1024x1024_1_1_2_2_0_0_wf

class Facts : Prop extends Facts₀ where

variable [Facts]
-- ==== Proof.KernelPieces.lean ====
/-
  What the body's loop of eight trips writes, store by store.

  Trip k reads rows 128k … 128k+127 of the vision block and makes two stores: the chunk's weights applied to the values
  into the same rows of the first output's block, and the chunk's weights themselves into the same rows of the scratch
  matrix. So whatever function G of the block's index each trip's payload is a piece of, every store made by the trips
  before any n is a piece of G; and the scratch's eight stores, 128 rows each, tile its 1024 rows.
-/
import proofs.«158884_j75703093559626_2_alg».proof.Proof.Gen.KernelIdeal.Loops
import Idealize.ShloMosaic.Lib.Pipeline.FrameBody
import Idealize.ShloMosaic.Lib.Pipeline.Value

set_option maxRecDepth 16384

noncomputable section

namespace Cert.KernelAttention

open Cert.KernelIdeal Cert.KernelIdeal.Gen Idealize.ShloMosaic Idealize.ShloMosaic.TcCoe Idealize.SL.Sem

variable {F : FTy → Type} [FloatOps F]

/-- The rows of the vision block that trip k reads. -/
abbrev chunkAt (arg1 : Memref sig .tc .vmem S1x1024x1024 .bf16) (X_arg1 : BufTy.Contents (Elt F) arg1.view.ty)
    (k : Fin k0_t1_loop.trips) : Vec F S1x128x1024 .bf16 :=
  View.readAt (Elt F) arg1.view (Rect.unit (s := S1x1024x1024) (k0_off1 k) S1x128x1024.size (k0_off1_inb k)).toLoadRect X_arg1

/-- The rows of the first output's block that trip k writes, and of the scratch. -/
abbrev outRows (k : Fin k0_t1_loop.trips) : Rect S1x1024x1024 :=
  Rect.unit (s := S1x1024x1024) (k0_off1 k) S1x128x1024.size (k0_off1_inb k)
abbrev scratchRows (k : Fin k0_t1_loop.trips) : Rect S1024x1024 :=
  Rect.unit (s := S1024x1024) (k0_off2 k) S128x1024.size (k0_off2_inb k)

/-- ONE TRIP'S STORES: one into the output's rows, one into the scratch's rows, each the payload of the chunk it read. -/
theorem tripL_eq (𝒱 : Variants) (c : Dev nD) (bd : Option 𝒱.V) (i : grid0.Coords) (arg1 : Memref sig .tc .vmem S1x1024x1024 .bf16) (harg1 : arg1.IsWhole) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1x1024x1024 .f32) (harg10 : arg10.IsWhole) (arg11 : Memref sig .tc .vmem S1024x1024 .bf16) (harg11 : arg11.IsWhole) (v0 : Vec F S1x1024x1024 .bf16) (v2 : Vec F S1024x1024 .bf16) (v4 : Vec F S1x1024 .f32) (v10 : Vec F S1024x1024 .bf16) (v12 : Vec F S1x1024 .f32) (v18 : Vec F S1024x1024 .bf16) (v20 : Vec F S1x1024 .f32) (X_arg1 : BufTy.Contents (Elt F) arg1.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 k
      = ([⟨outRows k, k0_pay4 v0 v2 v4 v10 v12 v18 v20 (chunkAt arg1 X_arg1 k)⟩],
         [⟨scratchRows k, k0_pay5 v0 v2 v4 v18 v20 (chunkAt arg1 X_arg1 k)⟩]) := by
  unfold tripL_k0_t1 trip_k0_t1; rfl

/-- Every store into the output made by the trips before n is a piece of G, if each trip's payload is. -/
theorem pb_out_pieces (𝒱 : Variants) (c : Dev nD) (bd : Option 𝒱.V) (i : grid0.Coords) (arg1 : Memref sig .tc .vmem S1x1024x1024 .bf16) (harg1 : arg1.IsWhole) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1x1024x1024 .f32) (harg10 : arg10.IsWhole) (arg11 : Memref sig .tc .vmem S1024x1024 .bf16) (harg11 : arg11.IsWhole) (v0 : Vec F S1x1024x1024 .bf16) (v2 : Vec F S1024x1024 .bf16) (v4 : Vec F S1x1024 .f32) (v10 : Vec F S1024x1024 .bf16) (v12 : Vec F S1x1024 .f32) (v18 : Vec F S1024x1024 .bf16) (v20 : Vec F S1x1024 .f32) (X_arg1 : BufTy.Contents (Elt F) arg1.view.ty)
    (G : S1x1024x1024.Idx → Elt F .f32)
    (hG : ∀ (k : Fin k0_t1_loop.trips) (x : S1x128x1024.Idx),
      k0_pay4 v0 v2 v4 v10 v12 v18 v20 (chunkAt arg1 X_arg1 k) x = G ((outRows k).emb x)) :
    ∀ n : ℕ, n ≤ k0_t1_loop.trips → ∀ p ∈ (pb_k0_t1 (F := F) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 n).1,
      ∀ x : p.1.shape.Idx, p.2 x = G (p.1.emb x) := by
  intro n
  induction n with
  | zero =>
    intro _ p hp
    rw [show pb_k0_t1 (F := F) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 0 = ([], []) from rfl] at hp
    exact absurd hp List.not_mem_nil
  | succ n ih =>
    intro hn p hp
    have hlt : n < k0_t1_loop.trips := hn
    have e := pb_k0_t1_succ (F := F) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 ⟨n, hlt⟩
    rw [tripL_eq] at e
    change p ∈ (pb_k0_t1 (F := F) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 ((⟨n, hlt⟩ : Fin k0_t1_loop.trips).val + 1)).1 at hp
    rw [e] at hp
    rcases List.mem_append.mp hp with h1 | h2
    · obtain rfl := List.mem_singleton.mp h1
      exact hG ⟨n, hlt⟩
    · exact ih (Nat.le_of_lt hlt) p h2

/-- Every store into the scratch made by the trips before n is a piece of G, if each trip's payload is. -/
theorem pb_scratch_pieces (𝒱 : Variants) (c : Dev nD) (bd : Option 𝒱.V) (i : grid0.Coords) (arg1 : Memref sig .tc .vmem S1x1024x1024 .bf16) (harg1 : arg1.IsWhole) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1x1024x1024 .f32) (harg10 : arg10.IsWhole) (arg11 : Memref sig .tc .vmem S1024x1024 .bf16) (harg11 : arg11.IsWhole) (v0 : Vec F S1x1024x1024 .bf16) (v2 : Vec F S1024x1024 .bf16) (v4 : Vec F S1x1024 .f32) (v10 : Vec F S1024x1024 .bf16) (v12 : Vec F S1x1024 .f32) (v18 : Vec F S1024x1024 .bf16) (v20 : Vec F S1x1024 .f32) (X_arg1 : BufTy.Contents (Elt F) arg1.view.ty)
    (G : S1024x1024.Idx → Elt F .bf16)
    (hG : ∀ (k : Fin k0_t1_loop.trips) (x : S128x1024.Idx),
      k0_pay5 v0 v2 v4 v18 v20 (chunkAt arg1 X_arg1 k) x = G ((scratchRows k).emb x)) :
    ∀ n : ℕ, n ≤ k0_t1_loop.trips → ∀ p ∈ (pb_k0_t1 (F := F) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 n).2,
      ∀ x : p.1.shape.Idx, p.2 x = G (p.1.emb x) := by
  intro n
  induction n with
  | zero =>
    intro _ p hp
    rw [show pb_k0_t1 (F := F) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 0 = ([], []) from rfl] at hp
    exact absurd hp List.not_mem_nil
  | succ n ih =>
    intro hn p hp
    have hlt : n < k0_t1_loop.trips := hn
    have e := pb_k0_t1_succ (F := F) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 ⟨n, hlt⟩
    rw [tripL_eq] at e
    change p ∈ (pb_k0_t1 (F := F) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 ((⟨n, hlt⟩ : Fin k0_t1_loop.trips).val + 1)).2 at hp
    rw [e] at hp
    rcases List.mem_append.mp hp with h1 | h2
    · obtain rfl := List.mem_singleton.mp h1
      exact hG ⟨n, hlt⟩
    · exact ih (Nat.le_of_lt hlt) p h2

/-- Trip k's store into the scratch is among the stores of the trips before any n > k. -/
theorem scratch_piece_mem (𝒱 : Variants) (c : Dev nD) (bd : Option 𝒱.V) (i : grid0.Coords) (arg1 : Memref sig .tc .vmem S1x1024x1024 .bf16) (harg1 : arg1.IsWhole) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1x1024x1024 .f32) (harg10 : arg10.IsWhole) (arg11 : Memref sig .tc .vmem S1024x1024 .bf16) (harg11 : arg11.IsWhole) (v0 : Vec F S1x1024x1024 .bf16) (v2 : Vec F S1024x1024 .bf16) (v4 : Vec F S1x1024 .f32) (v10 : Vec F S1024x1024 .bf16) (v12 : Vec F S1x1024 .f32) (v18 : Vec F S1024x1024 .bf16) (v20 : Vec F S1x1024 .f32) (X_arg1 : BufTy.Contents (Elt F) arg1.view.ty) (k : Fin k0_t1_loop.trips) :
    ∀ n : ℕ, n ≤ k0_t1_loop.trips → k.val < n →
      (⟨scratchRows k, k0_pay5 v0 v2 v4 v18 v20 (chunkAt arg1 X_arg1 k)⟩ : View.Piece (Elt F) S1024x1024 .bf16)
        ∈ (pb_k0_t1 (F := F) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 n).2 := by
  intro n
  induction n with
  | zero => intro _ h; exact absurd h (Nat.not_lt_zero _)
  | succ n ih =>
    intro hn hk
    have hlt : n < k0_t1_loop.trips := hn
    have e := pb_k0_t1_succ (F := F) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 ⟨n, hlt⟩
    rw [tripL_eq] at e
    change _ ∈ (pb_k0_t1 (F := F) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 ((⟨n, hlt⟩ : Fin k0_t1_loop.trips).val + 1)).2
    rw [e]
    rcases Nat.lt_succ_iff_lt_or_eq.mp hk with h | h
    · exact List.mem_append_right _ (ih (Nat.le_of_lt hlt) h)
    · have hk' : k = ⟨n, hlt⟩ := Fin.ext h
      subst hk'
      exact List.mem_append_left _ (List.mem_singleton_self _)

end Cert.KernelAttention

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.Attention.lean ====
/-
  Scaled dot-product cross-attention over the extended reals, entry by entry.

  For a batch `b`, vision rows `X0 b s ·` and text rows `X1 b t ·`, three linear layers give the queries, keys and
  values:  q(b,s,e) = Σ_d X0(b,s,d)·Wq(e,d) + bq(e),  k(b,t,e) = Σ_d X1(b,t,d)·Wk(e,d) + bk(e),
  v(b,t,e) = Σ_d X1(b,t,d)·Wv(e,d) + bv(e).  The score of a vision row against a text row is the scaled inner product
  (Σ_e q(b,s,e)·k(b,t,e))·c, a row of scores is turned into weights by subtracting the row's maximum, exponentiating
  and dividing by the row's sum, and the two results are the weights applied to the values,
  Σ_t a(b,s,t)·v(b,t,d), and the transposed weights applied to the vision rows, Σ_s a(b,s,t)·X0(b,s,d).

  The scale `c` is a parameter: one program multiplies by the float 2⁻⁵, the other divides by the square root of the
  float 1024; `div_sqrt_1024` says these are one function of an extended real, since 1024 = 32².
-/
import Idealize.ShloMosaic.PureOps.Ideal
import Idealize.ShloMosaic.Lib.ValueIdx

noncomputable section

open scoped BigOperators

namespace Cert.Attention

open Idealize.ShloMosaic

/-- A batch of matrices, a matrix and a vector, by coordinates. -/
abbrev Arr3 := Fin 16 → Fin 1024 → Fin 1024 → EReal
abbrev Arr2 := Fin 1024 → Fin 1024 → EReal
abbrev Arr1 := Fin 1024 → EReal

/-- The lower bound every row maximum starts from: the float word of −∞, kept as a word (both programs spell it). -/
abbrev negInf : EReal := Ideal.ofBits .f32 0xFF800000#32

/-- A linear layer x ↦ x·Wᵀ + bias, at row `(b, s)` and output feature `e`. -/
def lin (X : Arr3) (W : Arr2) (bias : Arr1) (b : Fin 16) (s e : Fin 1024) : EReal :=
  (∑ d : Fin 1024, X b s d * W e d) + bias e

/-- The scaled score of vision row `s` against text row `t`. -/
def score (c : EReal) (X0 X1 : Arr3) (Wq : Arr2) (bq : Arr1) (Wk : Arr2) (bk : Arr1) (b : Fin 16) (s t : Fin 1024) : EReal :=
  (∑ e : Fin 1024, lin X0 Wq bq b s e * lin X1 Wk bk b t e) * c

/-- The maximum of a row, from −∞. -/
def rowMax (r : Fin 1024 → EReal) : EReal := (Finset.univ : Finset (Fin 1024)).fold max negInf r

/-- The exponential of a score less its row's maximum. -/
def expo (c : EReal) (X0 X1 : Arr3) (Wq : Arr2) (bq : Arr1) (Wk : Arr2) (bk : Arr1) (b : Fin 16) (s t : Fin 1024) : EReal :=
  Ideal.exp (score c X0 X1 Wq bq Wk bk b s t - rowMax (fun t' => score c X0 X1 Wq bq Wk bk b s t'))

/-- The attention weight: the exponential over its row's sum. -/
def weight (c : EReal) (X0 X1 : Arr3) (Wq : Arr2) (bq : Arr1) (Wk : Arr2) (bk : Arr1) (b : Fin 16) (s t : Fin 1024) : EReal :=
  Ideal.div (expo c X0 X1 Wq bq Wk bk b s t) (∑ t' : Fin 1024, expo c X0 X1 Wq bq Wk bk b s t')

/-- The weights applied to the values: Σ_t a(b,s,t)·v(b,t,d). -/
def crossVision (c : EReal) (X0 X1 : Arr3) (Wq : Arr2) (bq : Arr1) (Wk : Arr2) (bk : Arr1) (Wv : Arr2) (bv : Arr1)
    (b : Fin 16) (s d : Fin 1024) : EReal :=
  ∑ t : Fin 1024, weight c X0 X1 Wq bq Wk bk b s t * lin X1 Wv bv b t d

/-- The transposed weights applied to the vision rows: Σ_s a(b,s,t)·X0(b,s,d). -/
def crossText (c : EReal) (X0 X1 : Arr3) (Wq : Arr2) (bq : Arr1) (Wk : Arr2) (bk : Arr1)
    (b : Fin 16) (t d : Fin 1024) : EReal :=
  ∑ s : Fin 1024, weight c X0 X1 Wq bq Wk bk b s t * X0 b s d

/-! ## The same, over arrays indexed by a shape's indices -/

/-- An array of shape [16, 1024, 1024], a matrix [1024, 1024] and a vector [1024], read by coordinates. -/
def ofIdx3 (x : (⟨3, ![16, 1024, 1024]⟩ : Shape).Idx → EReal) : Arr3 := fun b s d => x (ValueIdx.ix3 b s d)
def ofIdx2 (x : (⟨2, ![1024, 1024]⟩ : Shape).Idx → EReal) : Arr2 := fun e d => x (ValueIdx.ix2 e d)
def ofIdx1 (x : (⟨1, ![1024]⟩ : Shape).Idx → EReal) : Arr1 := fun e => x (ValueIdx.ix1 e)

/-- The scale both programs use, in the kernel's spelling: the float 2⁻⁵. -/
abbrev scale : EReal := Ideal.ofBits .f32 0x3D000000#32

/-- The first result as one array: entry (b, s, d) is `crossVision` of the eight argument arrays. -/
def crossVisionArr (x0 x1 : (⟨3, ![16, 1024, 1024]⟩ : Shape).Idx → EReal)
    (x2 : (⟨2, ![1024, 1024]⟩ : Shape).Idx → EReal) (x3 : (⟨1, ![1024]⟩ : Shape).Idx → EReal)
    (x4 : (⟨2, ![1024, 1024]⟩ : Shape).Idx → EReal) (x5 : (⟨1, ![1024]⟩ : Shape).Idx → EReal)
    (x6 : (⟨2, ![1024, 1024]⟩ : Shape).Idx → EReal) (x7 : (⟨1, ![1024]⟩ : Shape).Idx → EReal) :
    (⟨3, ![16, 1024, 1024]⟩ : Shape).Idx → EReal := fun i =>
  crossVision scale (ofIdx3 x0) (ofIdx3 x1) (ofIdx2 x2) (ofIdx1 x3) (ofIdx2 x4) (ofIdx1 x5) (ofIdx2 x6) (ofIdx1 x7) (i 0) (i 1) (i 2)

/-- The second result as one array: entry (b, t, d) is `crossText` of the first six argument arrays. -/
def crossTextArr (x0 x1 : (⟨3, ![16, 1024, 1024]⟩ : Shape).Idx → EReal)
    (x2 : (⟨2, ![1024, 1024]⟩ : Shape).Idx → EReal) (x3 : (⟨1, ![1024]⟩ : Shape).Idx → EReal)
    (x4 : (⟨2, ![1024, 1024]⟩ : Shape).Idx → EReal) (x5 : (⟨1, ![1024]⟩ : Shape).Idx → EReal) :
    (⟨3, ![16, 1024, 1024]⟩ : Shape).Idx → EReal := fun i =>
  crossText scale (ofIdx3 x0) (ofIdx3 x1) (ofIdx2 x2) (ofIdx1 x3) (ofIdx2 x4) (ofIdx1 x5) (i 0) (i 1) (i 2)

/-! ## The two spellings of the scale -/

/-- The float word 0x3D000000 is 2⁻⁵ = 1/32. -/
theorem ofBits_inv32 : Ideal.ofBits .f32 0x3D000000#32 = ((1 / 32 : ℝ) : EReal) := by
  simp [Ideal.ofBits, Ideal.ieee, -EReal.coe_mul]; norm_num

/-- The float word 0x44800000 is 1024. -/
theorem ofBits_1024 : Ideal.ofBits .f32 0x44800000#32 = ((1024 : ℝ) : EReal) := by
  simp [Ideal.ofBits, Ideal.ieee, -EReal.coe_mul]; norm_num

/-- √1024 = 32, since 32² = 1024. -/
theorem sqrt_1024 : Real.sqrt 1024 = 32 := by
  rw [show (1024 : ℝ) = 32 ^ 2 by norm_num]
  exact Real.sqrt_sq (by norm_num)

/-- Dividing an extended real by the square root of the float 1024 is multiplying it by the float 2⁻⁵: the root is the
    real 32, and a quotient by a non-zero real is the product with its reciprocal at every extended real. -/
theorem div_sqrt_1024 (x : EReal) :
    Ideal.div x (Ideal.sqrt (Ideal.ofBits .f32 0x44800000#32)) = x * Ideal.ofBits .f32 0x3D000000#32 := by
  rw [ofBits_1024, ofBits_inv32, Ideal.sqrt_coe, if_neg (by norm_num), sqrt_1024,
    Ideal.div_coe (by norm_num : (32 : ℝ) ≠ 0)]

/-- A row maximum taken from −∞ is already above −∞: the host's extra `max` against the −∞ it started from changes
    nothing. -/
theorem max_negInf_rowMax (r : Fin 1024 → EReal) : max negInf (rowMax r) = rowMax r :=
  max_eq_right ((Finset.le_fold_max negInf).mpr (Or.inl le_rfl))

end Cert.Attention

end
-- ==== Proof.KernelStages.lean ====
/-
  The kernel body's arithmetic, stage by stage, read at coordinates over the extended reals.

  Per batch the body holds a text block [1024, 1024], a 128-row chunk of the vision block, three weight matrices already
  transposed ([d, e] holds W(e, d)) and three bias rows [1, 1024]. Its stages are: a projection x·Wᵀ + bias (a product
  into the zero matrix plus a broadcast row); the scores of a chunk of queries against all keys, a product contracting
  both operands' feature axes, times the float 2⁻⁵; the exponentials of the scores less their row's maximum; the
  exponentials over their row's sum; the weights applied to the values; and, after all chunks, the transposed weights
  applied to the vision block (a product contracting both operands' row axes). Each stage is defined here with the
  spelling the body uses, so that the body's stored values are compositions of the stages, and each is read at an entry
  (p, t) written by its coordinates: a product as a sum over the contracted axis, a row maximum as a fold of max from −∞,
  a row sum as a sum. A change of float format is the identity on extended reals.
-/
import proofs.«158884_j75703093559626_2_alg».proof.Proof.Gen.KernelIdeal.Skeleton
import proofs.«158884_j75703093559626_2_alg».proof.Proof.LibMatmulPlain
import proofs.«158884_j75703093559626_2_alg».proof.Proof.LibColumns
import proofs.«158884_j75703093559626_2_alg».proof.Proof.Attention
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelAttention

open Cert.KernelIdeal Cert.KernelIdeal.Gen Cert.Attention Idealize.ShloMosaic Idealize.ShloMosaic.ValueIdx

/-! ## The two products that are not rows-by-columns -/

/-- The scores' product: the left index keeps the output's row and takes the contraction coordinate as its column; -/
theorem rr_lhs_0 (i : S128x1024.Idx) (q : dot_S128x1024_S1024x1024_S128x1024_1_1_0_0_n_n.contr.Idx) :
    (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide),
    dif_pos (show (0 : Fin S128x1024.rank) ∈ dot_S128x1024_S1024x1024_S128x1024_1_1_0_0_n_n.lhsNonContracting by decide)]
  rfl
theorem rr_lhs_1 (i : S128x1024.Idx) (q : dot_S128x1024_S1024x1024_S128x1024_1_1_0_0_n_n.contr.Idx) :
    (dot_S128x1024_S1024x1024_S128x1024_1_1_0_0_n_n.lhsIdx i q 1).val = (q ⟨0, by decide⟩).val :=
  dot_S128x1024_S1024x1024_S128x1024_1_1_0_0_n_n.lhsIdx_val_of_single rfl i q
/-- the right index takes the output's column as its row and the contraction coordinate as its column. -/
theorem rr_rhs_0 (i : S128x1024.Idx) (q : dot_S128x1024_S1024x1024_S128x1024_1_1_0_0_n_n.contr.Idx) :
    (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide),
    dif_pos (show (0 : Fin S1024x1024.rank) ∈ dot_S128x1024_S1024x1024_S128x1024_1_1_0_0_n_n.rhsNonContracting by decide)]
  rfl
theorem rr_rhs_1 (i : S128x1024.Idx) (q : dot_S128x1024_S1024x1024_S128x1024_1_1_0_0_n_n.contr.Idx) :
    (dot_S128x1024_S1024x1024_S128x1024_1_1_0_0_n_n.rhsIdx i q 1).val = (q ⟨0, by decide⟩).val :=
  dot_S128x1024_S1024x1024_S128x1024_1_1_0_0_n_n.rhsIdx_val_of_single rfl i q

/-- The scores' product contracts the feature axis of both operands: entry (p, t) is Σ_e lhs(p, e)·rhs(t, e). -/
theorem dot_rows_rows_apply (lhs : FVec Ideal S128x1024 .bf16) (rhs : FVec Ideal S1024x1024 .bf16) (p : Fin 128) (t : Fin 1024) :
    FloatOps.matmul dot_S128x1024_S1024x1024_S128x1024_1_1_0_0_n_n none lhs rhs (constant (F := Ideal) S128x1024 .f32 0x00000000#32) (ix2 p t)
      = ∑ e : Fin 1024, lhs (ix2 p e) * rhs (ix2 t e) := by
  rw [Ideal.matmul_constant_zero_apply, ← Equiv.sum_comp (contrEquiv1 dot_S128x1024_S1024x1024_S128x1024_1_1_0_0_n_n 1024 rfl rfl).symm]
  refine Finset.sum_congr rfl fun k _ => ?_
  have hk := contrEquiv1_symm_val dot_S128x1024_S1024x1024_S128x1024_1_1_0_0_n_n 1024 rfl rfl k
  have el : dot_S128x1024_S1024x1024_S128x1024_1_1_0_0_n_n.lhsIdx (ix2 p t) ((contrEquiv1 dot_S128x1024_S1024x1024_S128x1024_1_1_0_0_n_n 1024 rfl rfl).symm k) = ix2 p k :=
    funext fun a => Fin.ext (by
      match a with
      | ⟨0, _⟩ => exact rr_lhs_0 _ _
      | ⟨1, _⟩ => exact (rr_lhs_1 _ _).trans hk)
  have er : dot_S128x1024_S1024x1024_S128x1024_1_1_0_0_n_n.rhsIdx (ix2 p t) ((contrEquiv1 dot_S128x1024_S1024x1024_S128x1024_1_1_0_0_n_n 1024 rfl rfl).symm k) = ix2 t k :=
    funext fun a => Fin.ext (by
      match a with
      | ⟨0, _⟩ => exact rr_rhs_0 _ _
      | ⟨1, _⟩ => exact (rr_rhs_1 _ _).trans hk)
  rw [el, er]

/-- The last product: both operands' row is the contraction coordinate; the left keeps the output's row as its column,
    the right the output's column. -/
theorem cc_lhs_0 (i : S1024x1024.Idx) (q : dot_S1024x1024_S1024x1024_S1024x1024_0_0_1_1_n_n.contr.Idx) :
    (dot_S1024x1024_S1024x1024_S1024x1024_0_0_1_1_n_n.lhsIdx i q 0).val = (q ⟨0, by decide⟩).val :=
  dot_S1024x1024_S1024x1024_S1024x1024_0_0_1_1_n_n.lhsIdx_val_of_single rfl i q
theorem cc_lhs_1 (i : S1024x1024.Idx) (q : dot_S1024x1024_S1024x1024_S1024x1024_0_0_1_1_n_n.contr.Idx) :
    (dot_S1024x1024_S1024x1024_S1024x1024_0_0_1_1_n_n.lhsIdx i q 1).val = (i 0).val := by
  unfold DotDims.lhsIdx
  rw [dif_neg (show ¬(1 : Fin S1024x1024.rank) ∈ dot_S1024x1024_S1024x1024_S1024x1024_0_0_1_1_n_n.lhsBatch by decide),
    dif_pos (show (1 : Fin S1024x1024.rank) ∈ dot_S1024x1024_S1024x1024_S1024x1024_0_0_1_1_n_n.lhsNonContracting by decide)]
  rfl
theorem cc_rhs_0 (i : S1024x1024.Idx) (q : dot_S1024x1024_S1024x1024_S1024x1024_0_0_1_1_n_n.contr.Idx) :
    (dot_S1024x1024_S1024x1024_S1024x1024_0_0_1_1_n_n.rhsIdx i q 0).val = (q ⟨0, by decide⟩).val :=
  dot_S1024x1024_S1024x1024_S1024x1024_0_0_1_1_n_n.rhsIdx_val_of_single rfl i q
theorem cc_rhs_1 (i : S1024x1024.Idx) (q : dot_S1024x1024_S1024x1024_S1024x1024_0_0_1_1_n_n.contr.Idx) :
    (dot_S1024x1024_S1024x1024_S1024x1024_0_0_1_1_n_n.rhsIdx i q 1).val = (i 1).val := by
  unfold DotDims.rhsIdx
  rw [dif_neg (show ¬(1 : Fin S1024x1024.rank) ∈ dot_S1024x1024_S1024x1024_S1024x1024_0_0_1_1_n_n.rhsBatch by decide),
    dif_pos (show (1 : Fin S1024x1024.rank) ∈ dot_S1024x1024_S1024x1024_S1024x1024_0_0_1_1_n_n.rhsNonContracting by decide)]
  rfl

/-- The last product contracts the row axis of both operands: entry (t, d) is Σ_s lhs(s, t)·rhs(s, d). -/
theorem dot_cols_cols_apply (lhs rhs : FVec Ideal S1024x1024 .bf16) (t d : Fin 1024) :
    FloatOps.matmul dot_S1024x1024_S1024x1024_S1024x1024_0_0_1_1_n_n none lhs rhs (constant (F := Ideal) S1024x1024 .f32 0x00000000#32) (ix2 t d)
      = ∑ s : Fin 1024, lhs (ix2 s t) * rhs (ix2 s d) := by
  rw [Ideal.matmul_constant_zero_apply, ← Equiv.sum_comp (contrEquiv1 dot_S1024x1024_S1024x1024_S1024x1024_0_0_1_1_n_n 1024 rfl rfl).symm]
  refine Finset.sum_congr rfl fun k _ => ?_
  have hk := contrEquiv1_symm_val dot_S1024x1024_S1024x1024_S1024x1024_0_0_1_1_n_n 1024 rfl rfl k
  have el : dot_S1024x1024_S1024x1024_S1024x1024_0_0_1_1_n_n.lhsIdx (ix2 t d) ((contrEquiv1 dot_S1024x1024_S1024x1024_S1024x1024_0_0_1_1_n_n 1024 rfl rfl).symm k) = ix2 k t :=
    funext fun a => Fin.ext (by
      match a with
      | ⟨0, _⟩ => exact (cc_lhs_0 _ _).trans hk
      | ⟨1, _⟩ => exact cc_lhs_1 _ _)
  have er : dot_S1024x1024_S1024x1024_S1024x1024_0_0_1_1_n_n.rhsIdx (ix2 t d) ((contrEquiv1 dot_S1024x1024_S1024x1024_S1024x1024_0_0_1_1_n_n 1024 rfl rfl).symm k) = ix2 k d :=
    funext fun a => Fin.ext (by
      match a with
      | ⟨0, _⟩ => exact (cc_rhs_0 _ _).trans hk
      | ⟨1, _⟩ => exact cc_rhs_1 _ _)
  rw [el, er]

/-! ## The stages, spelt as the body spells them -/

/-- x·W + bias over all 1024 rows: the keys and the values. -/
def projBlock (x : FVec Ideal S1024x1024 .bf16) (w : Vec Ideal S1024x1024 .bf16) (bias : Vec Ideal S1x1024 .f32) :
    FVec Ideal S1024x1024 .f32 :=
  addf (matmul dot_S1024x1024_S1024x1024_S1024x1024_1_0_0_1_n_n none x
      (shapeCast S1024x1024 w shapeCasts_S1024x1024_S1024x1024 : FVec Ideal S1024x1024 .bf16) (constant S1024x1024 .f32 0x00000000#32))
    (broadcastTo S1024x1024 (shapeCast S1x1024 bias shapeCasts_S1x1024_S1x1024 : FVec Ideal S1x1024 .f32) broadcasts_S1x1024_S1024x1024)

/-- x·W + bias over a chunk of 128 rows: the queries. -/
def projChunk (x : FVec Ideal S128x1024 .bf16) (w : Vec Ideal S1024x1024 .bf16) (bias : Vec Ideal S1x1024 .f32) :
    FVec Ideal S128x1024 .f32 :=
  addf (matmul dot_S128x1024_S1024x1024_S128x1024_1_0_0_1_n_n none x
      (shapeCast S1024x1024 w shapeCasts_S1024x1024_S1024x1024 : FVec Ideal S1024x1024 .bf16) (constant S128x1024 .f32 0x00000000#32))
    (broadcastTo S128x1024 (shapeCast S1x1024 bias shapeCasts_S1x1024_S1x1024 : FVec Ideal S1x1024 .f32) broadcasts_S1x1024_S128x1024)

/-- The scaled scores of a chunk of queries against all keys. -/
def scoreChunk (q : FVec Ideal S128x1024 .f32) (k : FVec Ideal S1024x1024 .f32) : FVec Ideal S128x1024 .f32 :=
  mulf (matmul dot_S128x1024_S1024x1024_S128x1024_1_1_0_0_n_n none (truncf .bf16 q bitsLt_bf16_f32)
      (truncf .bf16 k bitsLt_bf16_f32) (constant S128x1024 .f32 0x00000000#32))
    (broadcast S128x1024 (Scalar.ofBits .f32 0x3D000000#32))

/-- The exponentials of the scores less their row's maximum. -/
def expChunk (sc : FVec Ideal S128x1024 .f32) : FVec Ideal S128x1024 .f32 :=
  exp (subf sc (broadcastTo S128x1024
    (shapeCast S128x1 (multiReduction .maximumf [1] S128 sc 0xFF800000#32 reduces_S128x1024_S128 (.inl rfl) rfl)
      shapeCasts_S128_S128x1) broadcasts_S128x1_S128x1024))

/-- The exponentials over their row's sum. -/
def weightChunk (ex : FVec Ideal S128x1024 .f32) : FVec Ideal S128x1024 .bf16 :=
  truncf .bf16 (divf ex (broadcastTo S128x1024
    (shapeCast S128x1 (multiReduction .add [1] S128 ex 0x00000000#32 reduces_S128x1024_S128 (.inl rfl) rfl)
      shapeCasts_S128_S128x1) broadcasts_S128x1_S128x1024)) bitsLt_bf16_f32

/-- The weights of a chunk applied to the values, with a leading unit axis. -/
def applyChunk (a : FVec Ideal S128x1024 .bf16) (v : FVec Ideal S1024x1024 .f32) : FVec Ideal S1x128x1024 .f32 :=
  shapeCast S1x128x1024 (matmul dot_S128x1024_S1024x1024_S128x1024_1_0_0_1_n_n none a
    (truncf .bf16 v bitsLt_bf16_f32) (constant S128x1024 .f32 0x00000000#32)) shapeCasts_S128x1024_S1x128x1024

/-! ## The body's stored values are compositions of the stages -/

theorem pay3_eq (v0 : Vec Ideal S1x1024x1024 .bf16) (v2 : Vec Ideal S1024x1024 .bf16) (v4 : Vec Ideal S1x1024 .f32)
    (v18 : Vec Ideal S1024x1024 .bf16) (v20 : Vec Ideal S1x1024 .f32) (v35 : Vec Ideal S1x128x1024 .bf16) :
    k0_pay3 (F := Ideal) v0 v2 v4 v18 v20 v35
      = weightChunk (expChunk (scoreChunk
          (projChunk (shapeCast S128x1024 v35 shapeCasts_S1x128x1024_S128x1024 : FVec Ideal S128x1024 .bf16) v18 v20)
          (projBlock (k0_pay2 (F := Ideal) v0) v2 v4))) := rfl

theorem pay4_eq (v0 : Vec Ideal S1x1024x1024 .bf16) (v2 : Vec Ideal S1024x1024 .bf16) (v4 : Vec Ideal S1x1024 .f32)
    (v10 : Vec Ideal S1024x1024 .bf16) (v12 : Vec Ideal S1x1024 .f32)
    (v18 : Vec Ideal S1024x1024 .bf16) (v20 : Vec Ideal S1x1024 .f32) (v35 : Vec Ideal S1x128x1024 .bf16) :
    k0_pay4 (F := Ideal) v0 v2 v4 v10 v12 v18 v20 v35
      = applyChunk (k0_pay3 (F := Ideal) v0 v2 v4 v18 v20 v35) (projBlock (k0_pay2 (F := Ideal) v0) v10 v12) := rfl

theorem pay5_eq (v0 : Vec Ideal S1x1024x1024 .bf16) (v2 : Vec Ideal S1024x1024 .bf16) (v4 : Vec Ideal S1x1024 .f32)
    (v18 : Vec Ideal S1024x1024 .bf16) (v20 : Vec Ideal S1x1024 .f32) (v35 : Vec Ideal S1x128x1024 .bf16) :
    k0_pay5 (F := Ideal) v0 v2 v4 v18 v20 v35 = k0_pay3 (F := Ideal) v0 v2 v4 v18 v20 v35 :=
  shapeCast_self _ _

/-! ## Each stage at an entry -/

theorem pay2_apply (v0 : Vec Ideal S1x1024x1024 .bf16) (t d : Fin 1024) :
    k0_pay2 (F := Ideal) v0 (ix2 t d) = v0 (ix3 (0 : Fin 1) t d) :=
  shapeCast_1ab_ab_apply v0 _ t d

theorem projBlock_apply (x : FVec Ideal S1024x1024 .bf16) (w : Vec Ideal S1024x1024 .bf16) (bias : Vec Ideal S1x1024 .f32)
    (r e : Fin 1024) :
    projBlock x w bias (ix2 r e) = (∑ d : Fin 1024, x (ix2 r d) * w (ix2 d e)) + bias (ix2 (0 : Fin 1) e) := by
  unfold projBlock
  rw [shapeCast_self, shapeCast_self]
  exact congrArg₂ (· + ·) (Cert.LibMatmulPlain.matmul_plain_zero_apply _ rfl none x w r e)
    (broadcastTo_1b_ab_apply bias _ r e)

theorem projChunk_apply (x : FVec Ideal S128x1024 .bf16) (w : Vec Ideal S1024x1024 .bf16) (bias : Vec Ideal S1x1024 .f32)
    (p : Fin 128) (e : Fin 1024) :
    projChunk x w bias (ix2 p e) = (∑ d : Fin 1024, x (ix2 p d) * w (ix2 d e)) + bias (ix2 (0 : Fin 1) e) := by
  unfold projChunk
  rw [shapeCast_self, shapeCast_self]
  exact congrArg₂ (· + ·) (Cert.LibMatmulPlain.matmul_plain_zero_apply _ rfl none x w p e)
    (broadcastTo_1b_ab_apply bias _ p e)

theorem scoreChunk_apply (q : FVec Ideal S128x1024 .f32) (k : FVec Ideal S1024x1024 .f32) (p : Fin 128) (t : Fin 1024) :
    scoreChunk q k (ix2 p t) = (∑ e : Fin 1024, q (ix2 p e) * k (ix2 t e)) * scale := by
  unfold scoreChunk
  exact congrArg (· * scale) (dot_rows_rows_apply _ _ p t)

/-- The reduced index p with the column t put back is (p, t). -/
theorem lift_row (p : Fin 128) (t : Fin (S128x1024.size 1)) :
    reduces_S128x1024_S128.lift (ix1 p) t = ix2 p (⟨t.val, t.isLt⟩ : Fin 1024) :=
  funext fun a => Fin.ext (by match a with | ⟨0, _⟩ => rfl | ⟨1, _⟩ => rfl)

theorem rowMax_apply (sc : FVec Ideal S128x1024 .f32) (hacc : (0xFF800000#32 : BitVec 32) = 0xFF800000#32) (p : Fin 128) :
    multiReduction .maximumf [1] S128 sc 0xFF800000#32 reduces_S128x1024_S128 (.inl rfl) hacc (ix1 p)
      = rowMax (fun t => sc (ix2 p t)) := by
  refine (Ideal.multiReduction_maximumf_single sc 0xFF800000#32 reduces_S128x1024_S128 (.inl rfl) hacc (ix1 p)).trans ?_
  unfold rowMax
  exact congrArg (fun f => Finset.fold max negInf f (Finset.univ : Finset (Fin 1024)))
    (funext fun t => congrArg sc (lift_row p t))

theorem rowSum_apply (ex : FVec Ideal S128x1024 .f32) (hacc : (0x00000000#32 : BitVec 32) = 0x00000000#32) (p : Fin 128) :
    multiReduction .add [1] S128 ex 0x00000000#32 reduces_S128x1024_S128 (.inl rfl) hacc (ix1 p)
      = ∑ t : Fin 1024, ex (ix2 p t) := by
  refine (Ideal.multiReduction_add_single ex 0x00000000#32 reduces_S128x1024_S128 (.inl rfl) hacc (ix1 p)).trans ?_
  exact Finset.sum_congr rfl fun t _ => congrArg ex (lift_row p t)

theorem expChunk_apply (sc : FVec Ideal S128x1024 .f32) (p : Fin 128) (t : Fin 1024) :
    expChunk sc (ix2 p t) = Ideal.exp (sc (ix2 p t) - rowMax (fun t' => sc (ix2 p t'))) := by
  unfold expChunk
  refine congrArg (fun m => Ideal.exp (sc (ix2 p t) - m)) ?_
  refine (Cert.Columns.broadcastTo_a1_ab_apply _ _ p t).trans ?_
  refine (Cert.Columns.shapeCast_a_a1_apply _ _ p 0).trans ?_
  exact rowMax_apply sc rfl p

theorem weightChunk_apply (ex : FVec Ideal S128x1024 .f32) (p : Fin 128) (t : Fin 1024) :
    weightChunk ex (ix2 p t) = Ideal.div (ex (ix2 p t)) (∑ t' : Fin 1024, ex (ix2 p t')) := by
  unfold weightChunk
  refine congrArg (fun l => Ideal.div (ex (ix2 p t)) l) ?_
  refine (Cert.Columns.broadcastTo_a1_ab_apply _ _ p t).trans ?_
  refine (Cert.Columns.shapeCast_a_a1_apply _ _ p 0).trans ?_
  exact rowSum_apply ex rfl p

theorem applyChunk_apply (a : FVec Ideal S128x1024 .bf16) (v : FVec Ideal S1024x1024 .f32) (u : Fin 1) (p : Fin 128) (d : Fin 1024) :
    applyChunk a v (ix3 u p d) = ∑ t : Fin 1024, a (ix2 p t) * v (ix2 t d) := by
  unfold applyChunk
  refine (shapeCast_ab_1ab_apply _ _ u p d).trans ?_
  exact Cert.LibMatmulPlain.matmul_plain_zero_apply _ rfl none a (truncf .bf16 v bitsLt_bf16_f32) p d

/-- The product after the loop, at (t, d): the scratch's column t against the vision block's column d. -/
theorem pay6_apply (v23 : Vec Ideal S1024x1024 .bf16) (v24 : Vec Ideal S1x1024x1024 .bf16) (t d : Fin 1024) :
    k0_pay6 (F := Ideal) v23 v24 (ix2 t d) = ∑ s : Fin 1024, v23 (ix2 s t) * v24 (ix3 (0 : Fin 1) s d) := by
  unfold k0_pay6
  refine (dot_cols_cols_apply v23 (shapeCast S1024x1024 v24 shapeCasts_S1x1024x1024_S1024x1024 : FVec Ideal S1024x1024 .bf16) t d).trans ?_
  exact Finset.sum_congr rfl fun s _ => congrArg (v23 (ix2 s t) * ·) (shapeCast_1ab_ab_apply v24 _ s d)

theorem pay1_apply (v26 : FVec Ideal S1024x1024 .f32) (u : Fin 1) (t d : Fin 1024) :
    k0_pay1 (F := Ideal) v26 (ix3 u t d) = v26 (ix2 t d) :=
  shapeCast_ab_1ab_apply v26 _ u t d

end Cert.KernelAttention

end
-- ==== Proof.KernelPayloads.lean ====
/-
  The body's stored values are the attention of the blocks.

  Suppose the text block holds X1(b, t, ·), the chunk of the vision block holds X0(b, row p, ·) for some rows
  `row : Fin 128 → Fin 1024`, the weight blocks hold the transposed matrices (entry (d, e) is W(e, d)) and the bias
  blocks the bias rows. Then, entry by entry: the keys and values are the linear layers of the text rows, the queries of
  the chunk's rows; the scaled scores, their exponentials less the row maximum and the weights are the specification's at
  (b, row p, t); and the chunk's store into the first output is Σ_t weight(b, row p, t)·value(b, t, d). And if the scratch
  matrix holds every weight(b, s, t) and the vision block X0(b, s, ·), the product after the loop is
  Σ_s weight(b, s, t)·X0(b, s, d).
-/
import proofs.«158884_j75703093559626_2_alg».proof.Proof.KernelStages

noncomputable section

open scoped BigOperators

namespace Cert.KernelAttention

open Cert.KernelIdeal Cert.KernelIdeal.Gen Cert.Attention Idealize.ShloMosaic Idealize.ShloMosaic.ValueIdx

section Chunk

variable (X0 X1 : Arr3) (Wq : Arr2) (bq : Arr1) (Wk : Arr2) (bk : Arr1) (Wv : Arr2) (bv : Arr1) (b : Fin 16)
  (row : Fin 128 → Fin 1024)
  (v0 : Vec Ideal S1x1024x1024 .bf16) (v2 : Vec Ideal S1024x1024 .bf16) (v4 : Vec Ideal S1x1024 .f32)
  (v10 : Vec Ideal S1024x1024 .bf16) (v12 : Vec Ideal S1x1024 .f32)
  (v18 : Vec Ideal S1024x1024 .bf16) (v20 : Vec Ideal S1x1024 .f32) (v35 : Vec Ideal S1x128x1024 .bf16)

/-- The keys: the linear layer of the text rows. -/
theorem keys_apply (h0 : ∀ t d : Fin 1024, v0 (ix3 (0 : Fin 1) t d) = X1 b t d)
    (h2 : ∀ d e : Fin 1024, v2 (ix2 d e) = Wk e d) (h4 : ∀ e : Fin 1024, v4 (ix2 (0 : Fin 1) e) = bk e) (t e : Fin 1024) :
    projBlock (k0_pay2 (F := Ideal) v0) v2 v4 (ix2 t e) = lin X1 Wk bk b t e := by
  rw [projBlock_apply]
  unfold lin
  exact congrArg₂ (· + ·) (Finset.sum_congr rfl fun d _ => by rw [pay2_apply, h0, h2]) (h4 e)

/-- The queries of the chunk's rows. -/
theorem queries_apply (h35 : ∀ (p : Fin 128) (d : Fin 1024), v35 (ix3 (0 : Fin 1) p d) = X0 b (row p) d)
    (h18 : ∀ d e : Fin 1024, v18 (ix2 d e) = Wq e d) (h20 : ∀ e : Fin 1024, v20 (ix2 (0 : Fin 1) e) = bq e)
    (p : Fin 128) (e : Fin 1024) :
    projChunk (shapeCast S128x1024 v35 shapeCasts_S1x128x1024_S128x1024 : FVec Ideal S128x1024 .bf16) v18 v20 (ix2 p e) = lin X0 Wq bq b (row p) e := by
  rw [projChunk_apply]
  unfold lin
  refine congrArg₂ (· + ·) (Finset.sum_congr rfl fun d _ => ?_) (h20 e)
  rw [shapeCast_1ab_ab_apply v35 _ p d, h35, h18]

variable (h0 : ∀ t d : Fin 1024, v0 (ix3 (0 : Fin 1) t d) = X1 b t d)
  (h2 : ∀ d e : Fin 1024, v2 (ix2 d e) = Wk e d) (h4 : ∀ e : Fin 1024, v4 (ix2 (0 : Fin 1) e) = bk e)
  (h10 : ∀ d e : Fin 1024, v10 (ix2 d e) = Wv e d) (h12 : ∀ e : Fin 1024, v12 (ix2 (0 : Fin 1) e) = bv e)
  (h18 : ∀ d e : Fin 1024, v18 (ix2 d e) = Wq e d) (h20 : ∀ e : Fin 1024, v20 (ix2 (0 : Fin 1) e) = bq e)
  (h35 : ∀ (p : Fin 128) (d : Fin 1024), v35 (ix3 (0 : Fin 1) p d) = X0 b (row p) d)

include h0 h2 h4 h18 h20 h35

/-- The scaled scores of the chunk's rows against every text row. -/
theorem scores_apply (p : Fin 128) (t : Fin 1024) :
    scoreChunk (projChunk (shapeCast S128x1024 v35 shapeCasts_S1x128x1024_S128x1024 : FVec Ideal S128x1024 .bf16) v18 v20)
        (projBlock (k0_pay2 (F := Ideal) v0) v2 v4) (ix2 p t)
      = score scale X0 X1 Wq bq Wk bk b (row p) t := by
  rw [scoreChunk_apply]
  unfold score
  refine congrArg (· * scale) (Finset.sum_congr rfl fun e _ => ?_)
  rw [queries_apply X0 Wq bq b row v18 v20 v35 h35 h18 h20 p e, keys_apply X1 Wk bk b v0 v2 v4 h0 h2 h4 t e]

/-- Their exponentials less the row's maximum. -/
theorem expos_apply (p : Fin 128) (t : Fin 1024) :
    expChunk (scoreChunk (projChunk (shapeCast S128x1024 v35 shapeCasts_S1x128x1024_S128x1024 : FVec Ideal S128x1024 .bf16) v18 v20)
        (projBlock (k0_pay2 (F := Ideal) v0) v2 v4)) (ix2 p t)
      = expo scale X0 X1 Wq bq Wk bk b (row p) t := by
  rw [expChunk_apply]
  unfold expo
  rw [scores_apply X0 X1 Wq bq Wk bk b row v0 v2 v4 v18 v20 v35 h0 h2 h4 h18 h20 h35 p t]
  refine congrArg (fun m => Ideal.exp (score scale X0 X1 Wq bq Wk bk b (row p) t - m)) ?_
  exact congrArg rowMax (funext fun t' => scores_apply X0 X1 Wq bq Wk bk b row v0 v2 v4 v18 v20 v35 h0 h2 h4 h18 h20 h35 p t')

/-- THE WEIGHTS of the chunk's rows: what the trip stores into the scratch. -/
theorem weights_apply (p : Fin 128) (t : Fin 1024) :
    k0_pay3 (F := Ideal) v0 v2 v4 v18 v20 v35 (ix2 p t) = weight scale X0 X1 Wq bq Wk bk b (row p) t := by
  rw [pay3_eq, weightChunk_apply]
  unfold weight
  rw [expos_apply X0 X1 Wq bq Wk bk b row v0 v2 v4 v18 v20 v35 h0 h2 h4 h18 h20 h35 p t]
  refine congrArg (fun l => Ideal.div (expo scale X0 X1 Wq bq Wk bk b (row p) t) l) ?_
  exact Finset.sum_congr rfl fun t' _ => expos_apply X0 X1 Wq bq Wk bk b row v0 v2 v4 v18 v20 v35 h0 h2 h4 h18 h20 h35 p t'

include h10 h12

/-- THE WEIGHTS APPLIED TO THE VALUES: what the trip stores into the first output. -/
theorem crossVision_apply (u : Fin 1) (p : Fin 128) (d : Fin 1024) :
    k0_pay4 (F := Ideal) v0 v2 v4 v10 v12 v18 v20 v35 (ix3 u p d)
      = crossVision scale X0 X1 Wq bq Wk bk Wv bv b (row p) d := by
  rw [pay4_eq, applyChunk_apply]
  unfold crossVision
  refine Finset.sum_congr rfl fun t _ => ?_
  rw [weights_apply X0 X1 Wq bq Wk bk b row v0 v2 v4 v18 v20 v35 h0 h2 h4 h18 h20 h35 p t,
    keys_apply X1 Wv bv b v0 v10 v12 h0 h10 h12 t d]

end Chunk

/-- THE TRANSPOSED WEIGHTS APPLIED TO THE VISION ROWS: the store after the loop, from a scratch holding the weights. -/
theorem crossText_apply (X0 X1 : Arr3) (Wq : Arr2) (bq : Arr1) (Wk : Arr2) (bk : Arr1) (b : Fin 16)
    (v23 : Vec Ideal S1024x1024 .bf16) (v24 : Vec Ideal S1x1024x1024 .bf16)
    (h23 : ∀ s t : Fin 1024, v23 (ix2 s t) = weight scale X0 X1 Wq bq Wk bk b s t)
    (h24 : ∀ s d : Fin 1024, v24 (ix3 (0 : Fin 1) s d) = X0 b s d) (u : Fin 1) (t d : Fin 1024) :
    k0_pay1 (F := Ideal) (k0_pay6 (F := Ideal) v23 v24) (ix3 u t d) = crossText scale X0 X1 Wq bq Wk bk b t d := by
  rw [pay1_apply, pay6_apply]
  unfold crossText
  exact Finset.sum_congr rfl fun s _ => by rw [h23, h24]

end Cert.KernelAttention

end
-- ==== Proof.KernelLoop.lean ====
/-
  After the loop: the first output's block and the scratch matrix, as functions of their index.

  Trip k handles rows 128k … 128k+127. With the text, weight and bias blocks as in the attention of batch b and the
  vision block holding X0(b, s, ·), trip k's store into the output is, at row p of its rectangle, the row 128k+p of
  Σ_t weight·value, and its store into the scratch the row 128k+p of the weights. So all the stores into the output are
  pieces of one function of the block's index — entry (·, s, d) is crossVision(b, s, d) — and all the stores into the
  scratch pieces of the weights (s, t) ↦ weight(b, s, t); what a list of such stores leaves is that function wherever a
  store covers, and the scratch's eight stores cover every row s, by the one for k = s / 128.
-/
import proofs.«158884_j75703093559626_2_alg».proof.Proof.KernelPieces
import proofs.«158884_j75703093559626_2_alg».proof.Proof.KernelPayloads

set_option maxRecDepth 16384

noncomputable section

open scoped BigOperators

namespace Cert.KernelAttention

open Cert.KernelIdeal Cert.KernelIdeal.Gen Cert.Attention Idealize.ShloMosaic Idealize.ShloMosaic.TcCoe
  Idealize.ShloMosaic.ValueIdx Idealize.SL.Sem

/-- The loop makes eight trips. -/
theorem trips_eq : k0_t1_loop.trips = 8 := by decide +kernel

/-- Row p of trip k's rectangle is row 128k + p of the block. -/
def rowOf (k : Fin k0_t1_loop.trips) (p : Fin 128) : Fin 1024 :=
  ⟨128 * k.val + p.val, by have := Nat.lt_of_lt_of_le k.isLt k0_t1_abs.2.1; have := p.isLt; omega⟩

theorem outRows_emb (k : Fin k0_t1_loop.trips) (u : Fin 1) (p : Fin 128) (d : Fin 1024) :
    (outRows k).emb (ix3 u p d) = ix3 (0 : Fin 1) (rowOf k p) d := by
  have e := k0_off1_eq k
  have hu : u.val = 0 := by omega
  funext a
  apply Fin.ext
  match a with
  | ⟨0, _⟩ =>
    show (k0_off1 k) 0 + 1 * u.val = 0
    rw [e, hu]; rfl
  | ⟨1, _⟩ =>
    show (k0_off1 k) 1 + 1 * p.val = 128 * k.val + p.val
    rw [e, Nat.one_mul]; rfl
  | ⟨2, _⟩ =>
    show (k0_off1 k) 2 + 1 * d.val = d.val
    rw [e, Nat.one_mul]; exact Nat.zero_add _

theorem scratchRows_emb (k : Fin k0_t1_loop.trips) (p : Fin 128) (t : Fin 1024) :
    (scratchRows k).emb (ix2 p t) = ix2 (rowOf k p) t := by
  have e := k0_off2_eq k
  funext a
  apply Fin.ext
  match a with
  | ⟨0, _⟩ =>
    show (k0_off2 k) 0 + 1 * p.val = 128 * k.val + p.val
    rw [e, Nat.one_mul]; rfl
  | ⟨1, _⟩ =>
    show (k0_off2 k) 1 + 1 * t.val = t.val
    rw [e, Nat.one_mul]; exact Nat.zero_add _

section Loop

variable (X0 X1 : Arr3) (Wq : Arr2) (bq : Arr1) (Wk : Arr2) (bk : Arr1) (Wv : Arr2) (bv : Arr1) (b : Fin 16)

/-- The first output's block as a function of its index: entry (·, s, d) is crossVision(b, s, d). -/
def outG : S1x1024x1024.Idx → EReal := fun y =>
  crossVision scale X0 X1 Wq bq Wk bk Wv bv b ⟨(y 1).val, (y 1).isLt⟩ ⟨(y 2).val, (y 2).isLt⟩

/-- The scratch matrix as a function of its index: entry (s, t) is weight(b, s, t). -/
def scratchG : S1024x1024.Idx → EReal := fun y =>
  weight scale X0 X1 Wq bq Wk bk b ⟨(y 0).val, (y 0).isLt⟩ ⟨(y 1).val, (y 1).isLt⟩

variable (𝒱 : Variants) (c : Dev nD) (bd : Option 𝒱.V) (i : grid0.Coords) (arg1 : Memref sig .tc .vmem S1x1024x1024 .bf16) (harg1 : arg1.IsWhole) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1x1024x1024 .f32) (harg10 : arg10.IsWhole) (arg11 : Memref sig .tc .vmem S1024x1024 .bf16) (harg11 : arg11.IsWhole) (v0 : Vec Ideal S1x1024x1024 .bf16) (v2 : Vec Ideal S1024x1024 .bf16) (v4 : Vec Ideal S1x1024 .f32) (v10 : Vec Ideal S1024x1024 .bf16) (v12 : Vec Ideal S1x1024 .f32) (v18 : Vec Ideal S1024x1024 .bf16) (v20 : Vec Ideal S1x1024 .f32) (X_arg1 : BufTy.Contents (Elt Ideal) arg1.view.ty)
  (h0 : ∀ t d : Fin 1024, v0 (ix3 (0 : Fin 1) t d) = X1 b t d)
  (h2 : ∀ d e : Fin 1024, v2 (ix2 d e) = Wk e d) (h4 : ∀ e : Fin 1024, v4 (ix2 (0 : Fin 1) e) = bk e)
  (h10 : ∀ d e : Fin 1024, v10 (ix2 d e) = Wv e d) (h12 : ∀ e : Fin 1024, v12 (ix2 (0 : Fin 1) e) = bv e)
  (h18 : ∀ d e : Fin 1024, v18 (ix2 d e) = Wq e d) (h20 : ∀ e : Fin 1024, v20 (ix2 (0 : Fin 1) e) = bq e)
  (hx : ∀ s d : Fin 1024, arg1.view.read (Elt Ideal) X_arg1 (ix3 (0 : Fin 1) s d) = X0 b s d)

include hx in
/-- The chunk trip k reads holds the rows 128k + p of the vision block. -/
theorem chunk_rows (k : Fin k0_t1_loop.trips) (p : Fin 128) (d : Fin 1024) :
    chunkAt (F := Ideal) arg1 X_arg1 k (ix3 (0 : Fin 1) p d) = X0 b (rowOf k p) d := by
  show arg1.view.read (Elt Ideal) X_arg1 ((outRows k).emb (ix3 (0 : Fin 1) p d)) = _
  rw [outRows_emb, hx]

include h0 h2 h4 h18 h20 hx in
/-- Every store into the scratch by the trips before n is a piece of the weights. -/
theorem scratch_pieces (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 n).2,
      ∀ x : p.1.shape.Idx, p.2 x = scratchG X0 X1 Wq bq Wk bk b (p.1.emb x) := by
  refine pb_scratch_pieces (F := Ideal) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 (scratchG X0 X1 Wq bq Wk bk b) (fun k x => ?_) n hn
  obtain ⟨p, t, rfl⟩ : ∃ (p : Fin 128) (t : Fin 1024), x = ix2 p t := ⟨x 0, x 1, eq_ix2 x⟩
  rw [scratchRows_emb, pay5_eq]
  exact weights_apply X0 X1 Wq bq Wk bk b (rowOf k) v0 v2 v4 v18 v20 (chunkAt (F := Ideal) arg1 X_arg1 k) h0 h2 h4 h18 h20
    (chunk_rows X0 b arg1 X_arg1 hx k) p t

include h0 h2 h4 h10 h12 h18 h20 hx in
/-- Every store into the first output by the trips before n is a piece of the weights applied to the values. -/
theorem out_pieces (n : ℕ) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 n).1,
      ∀ x : p.1.shape.Idx, p.2 x = outG X0 X1 Wq bq Wk bk Wv bv b (p.1.emb x) := by
  refine pb_out_pieces (F := Ideal) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 (outG X0 X1 Wq bq Wk bk Wv bv b) (fun k x => ?_) n hn
  obtain ⟨u, p, d, rfl⟩ : ∃ (u : Fin 1) (p : Fin 128) (d : Fin 1024), x = ix3 u p d := ⟨x 0, x 1, x 2, eq_ix3 x⟩
  rw [outRows_emb]
  exact crossVision_apply X0 X1 Wq bq Wk bk Wv bv b (rowOf k) v0 v2 v4 v10 v12 v18 v20 (chunkAt (F := Ideal) arg1 X_arg1 k)
    h0 h2 h4 h10 h12 h18 h20 (chunk_rows X0 b arg1 X_arg1 hx k) u p d

/-- The scratch's stores cover every index: row s lies in the rectangle of trip s / 128. -/
theorem scratch_covered (y : S1024x1024.Idx) :
    ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 k0_t1_loop.trips).2, y ∈ p.1.set := by
  have hy0 : (y 0).val < 1024 := (y 0).isLt
  have hy1 : (y 1).val < 1024 := (y 1).isLt
  have hk : (y 0).val / 128 < k0_t1_loop.trips := by rw [trips_eq]; omega
  refine ⟨_, scratch_piece_mem (F := Ideal) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 ⟨(y 0).val / 128, hk⟩ k0_t1_loop.trips (Nat.le_refl _) hk, ?_⟩
  show y ∈ (scratchRows ⟨(y 0).val / 128, hk⟩).set
  rw [Rect.mem_set_unit]
  have e := k0_off2_eq ⟨(y 0).val / 128, hk⟩
  intro a
  match a with
  | ⟨0, _⟩ =>
    show (k0_off2 ⟨(y 0).val / 128, hk⟩) 0 ≤ (y 0).val ∧ (y 0).val < (k0_off2 ⟨(y 0).val / 128, hk⟩) 0 + 128
    rw [e]
    show 128 * ((y 0).val / 128) ≤ (y 0).val ∧ (y 0).val < 128 * ((y 0).val / 128) + 128
    omega
  | ⟨1, _⟩ =>
    show (k0_off2 ⟨(y 0).val / 128, hk⟩) 1 ≤ (y 1).val ∧ (y 1).val < (k0_off2 ⟨(y 0).val / 128, hk⟩) 1 + 1024
    rw [e]
    show 0 ≤ (y 1).val ∧ (y 1).val < 0 + 1024
    omega

include h0 h2 h4 h18 h20 hx in
/-- WHAT THE LOOP LEAVES IN THE SCRATCH: the weights, at every entry. -/
theorem scratch_canon (s t : Fin 1024) :
    View.canon (pb_k0_t1 (F := Ideal) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 k0_t1_loop.trips).2 (ix2 s t)
      = weight scale X0 X1 Wq bq Wk bk b s t :=
  View.canon_apply_of_pieces (scratchG X0 X1 Wq bq Wk bk b) _
    (scratch_pieces X0 X1 Wq bq Wk bk b 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 h0 h2 h4 h18 h20 hx k0_t1_loop.trips (Nat.le_refl _))
    (ix2 s t) (scratch_covered 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 (ix2 s t))

include h0 h2 h4 h10 h12 h18 h20 hx in
/-- WHAT THE LOOP LEAVES IN THE FIRST OUTPUT'S BLOCK, wherever its stores cover: the weights applied to the values. -/
theorem out_canon (hcover : ∀ y : S1x1024x1024.Idx,
      ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 k0_t1_loop.trips).1, y ∈ p.1.set)
    (u : Fin 1) (s d : Fin 1024) :
    View.canon (pb_k0_t1 (F := Ideal) 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 k0_t1_loop.trips).1 (ix3 u s d)
      = crossVision scale X0 X1 Wq bq Wk bk Wv bv b s d :=
  View.canon_apply_of_pieces (outG X0 X1 Wq bq Wk bk Wv bv b) _
    (out_pieces X0 X1 Wq bq Wk bk Wv bv b 𝒱 c bd i arg1 harg1 arg2 harg2 arg3 harg3 arg4 harg4 arg5 harg5 arg6 harg6 arg7 harg7 arg8 harg8 arg9 harg9 arg10 harg10 arg11 harg11 v0 v2 v4 v10 v12 v18 v20 X_arg1 h0 h2 h4 h10 h12 h18 h20 hx k0_t1_loop.trips (Nat.le_refl _))
    (ix3 u s d) (hcover (ix3 u s d))

end Loop

end Cert.KernelAttention

end
-- ==== Proof.KernelBody.lean ====
/-
  What the body leaves in the two outputs' staging buffers, entry by entry.

  The body's run leaves, in the first output's buffer, the eight stores of the loop's trips, and in the second the one store
  after the loop, whose payload is the product of the scratch — read back as the loop's eight stores into it left it —
  with the vision block. A load of a whole buffer reads its contents. So if the eight input blocks are the rows of batch b
  (vision X0(b, ·, ·), text X1(b, ·, ·)), the transposed weights and the bias rows, the first buffer ends with
  crossVision(b, s, d) at (·, s, d) and the second with crossText(b, t, d) at (·, t, d).
-/
import proofs.«158884_j75703093559626_2_alg».proof.Proof.KernelIdealFrame
import proofs.«158884_j75703093559626_2_alg».proof.Proof.KernelLoop

set_option maxRecDepth 16384

noncomputable section

open scoped BigOperators

namespace Cert.KernelAttention

open Cert.KernelIdeal Cert.KernelIdeal.Gen Cert.KernelIdeal.GenP Cert.Attention Idealize.ShloMosaic Idealize.ShloMosaic.TcCoe
  Idealize.ShloMosaic.ValueIdx Idealize.SL.Sem

/-! ## A load of a whole buffer reads its contents -/

theorem load_whole3 {e : EltTy} (a : Memref sig .tc .vmem S1x1024x1024 e) (ha : a.IsWhole) (x : Vec Ideal S1x1024x1024 e) :
    View.readAt (Elt Ideal) a.view (Rect.unit (s := S1x1024x1024) ![0, 0, 0] S1x1024x1024.size inb_S1x1024x1024_S1x1024x1024_0_0_0).toLoadRect
      (ha.unread x) = x := by
  rw [View.readAt_eq_ld, ha.read_unread]
  exact View.ld_unit_zero (funext fun a => by fin_cases a <;> rfl) _ x

theorem load_whole2 {e : EltTy} (a : Memref sig .tc .vmem S1024x1024 e) (ha : a.IsWhole) (x : Vec Ideal S1024x1024 e) :
    View.readAt (Elt Ideal) a.view (Rect.unit (s := S1024x1024) ![0, 0] S1024x1024.size inb_S1024x1024_S1024x1024_0_0).toLoadRect
      (ha.unread x) = x := by
  rw [View.readAt_eq_ld, ha.read_unread]
  exact View.ld_unit_zero (funext fun a => by fin_cases a <;> rfl) _ x

theorem load_whole1 {e : EltTy} (a : Memref sig .tc .vmem S1x1024 e) (ha : a.IsWhole) (x : Vec Ideal S1x1024 e) :
    View.readAt (Elt Ideal) a.view (Rect.unit (s := S1x1024) ![0, 0] S1x1024.size inb_S1x1024_S1x1024_0_0).toLoadRect
      (ha.unread x) = x := by
  rw [View.readAt_eq_ld, ha.read_unread]
  exact View.ld_unit_zero (funext fun a => by fin_cases a <;> rfl) _ x

section Body

variable (X0 X1 : Arr3) (Wq : Arr2) (bq : Arr1) (Wk : Arr2) (bk : Arr1) (Wv : Arr2) (bv : Arr1) (b : Fin 16)
  (c : Dev nD) (i : grid0.Coords) (arg1 : Memref sig .tc .vmem S1x1024x1024 .bf16) (harg1 : arg1.IsWhole) (arg2 : Memref sig .tc .vmem S1x1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1x1024x1024 .f32) (harg10 : arg10.IsWhole) (arg11 : Memref sig .tc .vmem S1024x1024 .bf16) (harg11 : arg11.IsWhole)
  (x0 x1 : Vec Ideal S1x1024x1024 .bf16) (x2 : Vec Ideal S1024x1024 .bf16) (x3 : Vec Ideal S1x1024 .f32) (x4 : Vec Ideal S1024x1024 .bf16) (x5 : Vec Ideal S1x1024 .f32) (x6 : Vec Ideal S1024x1024 .bf16) (x7 : Vec Ideal S1x1024 .f32)
  (hx0 : ∀ s d : Fin 1024, x0 (ix3 (0 : Fin 1) s d) = X0 b s d)
  (hx1 : ∀ t d : Fin 1024, x1 (ix3 (0 : Fin 1) t d) = X1 b t d)
  (hx2 : ∀ d e : Fin 1024, x2 (ix2 d e) = Wq e d) (hx3 : ∀ e : Fin 1024, x3 (ix2 (0 : Fin 1) e) = bq e)
  (hx4 : ∀ d e : Fin 1024, x4 (ix2 d e) = Wk e d) (hx5 : ∀ e : Fin 1024, x5 (ix2 (0 : Fin 1) e) = bk e)
  (hx6 : ∀ d e : Fin 1024, x6 (ix2 d e) = Wv e d) (hx7 : ∀ e : Fin 1024, x7 (ix2 (0 : Fin 1) e) = bv e)

include hx0 hx1 hx2 hx3 hx4 hx5 hx6 hx7 in
/-- THE FIRST OUTPUT'S BUFFER after the body: crossVision of batch b. -/
theorem body_out8 (u : Fin 1) (s d : Fin 1024) :
    out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix3 u s d)
      = crossVision scale X0 X1 Wq bq Wk bk Wv bv b s d := by
  unfold out0_A_8
  rw [View.read_writes_junk_eq_canon]
  exact out_canon X0 X1 Wq bq Wk bk Wv bv b Variants.none c none i arg1 harg1 arg2 harg2 arg3 harg3 arg4 harg4 arg5 harg5 arg6 harg6 arg7 harg7 arg8 harg8 arg9 harg9 arg10 harg10 arg11 harg11 (View.readAt (Elt Ideal) arg2.view (Rect.unit (s := S1x1024x1024) ![0, 0, 0] S1x1024x1024.size inb_S1x1024x1024_S1x1024x1024_0_0_0).toLoadRect (harg2.unread x1)) (View.readAt (Elt Ideal) arg5.view (Rect.unit (s := S1024x1024) ![0, 0] S1024x1024.size inb_S1024x1024_S1024x1024_0_0).toLoadRect (harg5.unread x4)) (View.readAt (Elt Ideal) arg6.view (Rect.unit (s := S1x1024) ![0, 0] S1x1024.size inb_S1x1024_S1x1024_0_0).toLoadRect (harg6.unread x5)) (View.readAt (Elt Ideal) arg7.view (Rect.unit (s := S1024x1024) ![0, 0] S1024x1024.size inb_S1024x1024_S1024x1024_0_0).toLoadRect (harg7.unread x6)) (View.readAt (Elt Ideal) arg8.view (Rect.unit (s := S1x1024) ![0, 0] S1x1024.size inb_S1x1024_S1x1024_0_0).toLoadRect (harg8.unread x7)) (View.readAt (Elt Ideal) arg3.view (Rect.unit (s := S1024x1024) ![0, 0] S1024x1024.size inb_S1024x1024_S1024x1024_0_0).toLoadRect (harg3.unread x2)) (View.readAt (Elt Ideal) arg4.view (Rect.unit (s := S1x1024) ![0, 0] S1x1024.size inb_S1x1024_S1x1024_0_0).toLoadRect (harg4.unread x3)) (harg1.unread x0)
    (fun t d => by rw [load_whole3]; exact hx1 t d)
    (fun d e => by rw [load_whole2]; exact hx4 d e) (fun e => by rw [load_whole1]; exact hx5 e)
    (fun d e => by rw [load_whole2]; exact hx6 d e) (fun e => by rw [load_whole1]; exact hx7 e)
    (fun d e => by rw [load_whole2]; exact hx2 d e) (fun e => by rw [load_whole1]; exact hx3 e)
    (fun s d => by rw [harg1.read_unread]; exact hx0 s d)
    (cover0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7) u s d

include hx0 hx1 hx2 hx3 hx4 hx5 in
/-- THE SECOND OUTPUT'S BUFFER after the body: crossText of batch b. -/
theorem body_out9 (u : Fin 1) (t d : Fin 1024) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 (ix3 u t d)
      = crossText scale X0 X1 Wq bq Wk bk b t d := by
  unfold out0_A_9
  rw [View.read_writes_junk_eq_canon]
  refine (congrFun (View.canon_unit_zero (S := S1x1024x1024) (funext fun a => by fin_cases a <;> rfl) _ _) (ix3 u t d)).trans ?_
  refine crossText_apply X0 X1 Wq bq Wk bk b _ _ (fun s t => ?_) (fun s d => ?_) u t d
  · rw [View.readCov_eq_canon']
    refine (congrArg (View.canon _) ?_).trans
      (scratch_canon X0 X1 Wq bq Wk bk b Variants.none c none i arg1 harg1 arg2 harg2 arg3 harg3 arg4 harg4 arg5 harg5 arg6 harg6 arg7 harg7 arg8 harg8 arg9 harg9 arg10 harg10 arg11 harg11 (View.readAt (Elt Ideal) arg2.view (Rect.unit (s := S1x1024x1024) ![0, 0, 0] S1x1024x1024.size inb_S1x1024x1024_S1x1024x1024_0_0_0).toLoadRect (harg2.unread x1)) (View.readAt (Elt Ideal) arg5.view (Rect.unit (s := S1024x1024) ![0, 0] S1024x1024.size inb_S1024x1024_S1024x1024_0_0).toLoadRect (harg5.unread x4)) (View.readAt (Elt Ideal) arg6.view (Rect.unit (s := S1x1024) ![0, 0] S1x1024.size inb_S1x1024_S1x1024_0_0).toLoadRect (harg6.unread x5)) (View.readAt (Elt Ideal) arg7.view (Rect.unit (s := S1024x1024) ![0, 0] S1024x1024.size inb_S1024x1024_S1024x1024_0_0).toLoadRect (harg7.unread x6)) (View.readAt (Elt Ideal) arg8.view (Rect.unit (s := S1x1024) ![0, 0] S1x1024.size inb_S1x1024_S1x1024_0_0).toLoadRect (harg8.unread x7)) (View.readAt (Elt Ideal) arg3.view (Rect.unit (s := S1024x1024) ![0, 0] S1024x1024.size inb_S1024x1024_S1024x1024_0_0).toLoadRect (harg3.unread x2)) (View.readAt (Elt Ideal) arg4.view (Rect.unit (s := S1x1024) ![0, 0] S1x1024.size inb_S1x1024_S1x1024_0_0).toLoadRect (harg4.unread x3)) (harg1.unread x0)
        (fun t d => by rw [load_whole3]; exact hx1 t d)
        (fun d e => by rw [load_whole2]; exact hx4 d e) (fun e => by rw [load_whole1]; exact hx5 e)
        (fun d e => by rw [load_whole2]; exact hx2 d e) (fun e => by rw [load_whole1]; exact hx3 e)
        (fun s d => by rw [harg1.read_unread]; exact hx0 s d) s t)
    funext a; apply Fin.ext
    match a with
    | ⟨0, _⟩ => show 0 + 1 * s.val = s.val; omega
    | ⟨1, _⟩ => show 0 + 1 * t.val = t.val; omega
  · rw [load_whole3]; exact hx0 s d

end Body

end Cert.KernelAttention

end
-- ==== Proof.KernelBlocks.lean ====
/-
  What each input window's block holds at a grid point, at coordinates, in terms of the program's argument arrays, over
  the extended reals.

  Before the gridded region the host narrows the two batches of rows (the identity on extended reals), transposes and
  narrows the three weight matrices, and gives the three bias vectors a leading unit axis.  At grid point t the first two
  windows hold batch t of the rows; the others hold their whole array at every point.
-/
import proofs.«158884_j75703093559626_2_alg».proof.Proof.Gen.KernelIdeal.Frame.Runs
import Idealize.ShloMosaic.Lib.ValueLayout
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelAttention

open Cert.KernelIdeal Cert.KernelIdeal.Gen

variable (m : (ℓ : Loc nD τ sig) → Buf (Elt Ideal) ℓ)

/-- The batch a grid point works on: the grid is one axis of sixteen points. -/
def batchOf (t : Fin cfg0.N) : Fin 16 := ⟨t.val, lt_of_lt_of_eq t.isLt (show cfg0.N = 16 from N_0)⟩

/-! ## The arrays the host wrote before the region -/

/-- The vision rows as the region finds them: narrowed. -/
theorem V_v0 (c : Dev nD) : (V m c main_v0 : S16x1024x1024.Idx → EReal)
    = truncf (F := Ideal) .bf16 (m ((c : Thread nD τ).loc main_arg0) : S16x1024x1024.Idx → EReal) bitsLt_bf16_f32 := by
  dsimp only [Gen.V, Gen.hostOps0]; after_results

/-- The text rows as the region finds them: narrowed. -/
theorem V_v1 (c : Dev nD) : (V m c main_v1 : S16x1024x1024.Idx → EReal)
    = truncf (F := Ideal) .bf16 (m ((c : Thread nD τ).loc main_arg1) : S16x1024x1024.Idx → EReal) bitsLt_bf16_f32 := by
  dsimp only [Gen.V, Gen.hostOps0]; after_results

/-- The first weight matrix as the region finds it: transposed, then narrowed. -/
theorem V_v3 (c : Dev nD) : (V m c main_v3 : S1024x1024.Idx → EReal)
    = truncf (F := Ideal) .bf16 (transpose S1024x1024 [1, 0] (m ((c : Thread nD τ).loc main_arg2) : S1024x1024.Idx → EReal) transposes_S1024x1024_S1024x1024_1_0) bitsLt_bf16_f32 := by
  dsimp only [Gen.V, Gen.hostOps0]; after_results

/-- The second weight matrix as the region finds it: transposed, then narrowed. -/
theorem V_v5 (c : Dev nD) : (V m c main_v5 : S1024x1024.Idx → EReal)
    = truncf (F := Ideal) .bf16 (transpose S1024x1024 [1, 0] (m ((c : Thread nD τ).loc main_arg4) : S1024x1024.Idx → EReal) transposes_S1024x1024_S1024x1024_1_0) bitsLt_bf16_f32 := by
  dsimp only [Gen.V, Gen.hostOps0]; after_results

/-- The third weight matrix as the region finds it: transposed, then narrowed. -/
theorem V_v7 (c : Dev nD) : (V m c main_v7 : S1024x1024.Idx → EReal)
    = truncf (F := Ideal) .bf16 (transpose S1024x1024 [1, 0] (m ((c : Thread nD τ).loc main_arg6) : S1024x1024.Idx → EReal) transposes_S1024x1024_S1024x1024_1_0) bitsLt_bf16_f32 := by
  dsimp only [Gen.V, Gen.hostOps0]; after_results

/-- The first bias vector as the region finds it: given a leading unit axis. -/
theorem V_v8 (c : Dev nD) : (V m c main_v8 : S1x1024.Idx → EReal)
    = shapeCast S1x1024 (m ((c : Thread nD τ).loc main_arg3) : S1024.Idx → EReal) shapeCasts_S1024_S1x1024 := by
  dsimp only [Gen.V, Gen.hostOps0]; after_results; rfl

/-- The second bias vector as the region finds it: given a leading unit axis. -/
theorem V_v9 (c : Dev nD) : (V m c main_v9 : S1x1024.Idx → EReal)
    = shapeCast S1x1024 (m ((c : Thread nD τ).loc main_arg5) : S1024.Idx → EReal) shapeCasts_S1024_S1x1024 := by
  dsimp only [Gen.V, Gen.hostOps0]; after_results; rfl

/-- The third bias vector as the region finds it: given a leading unit axis. -/
theorem V_v10 (c : Dev nD) : (V m c main_v10 : S1x1024.Idx → EReal)
    = shapeCast S1x1024 (m ((c : Thread nD τ).loc main_arg7) : S1024.Idx → EReal) shapeCasts_S1024_S1x1024 := by
  dsimp only [Gen.V, Gen.hostOps0]; after_results; rfl

/-! ## The blocks read through the windows -/

/-- Window 2 holds its whole array at every point. -/
theorem blk2_read (c : Dev nD) (t : Fin cfg0.N) (y : S1024x1024.Idx) :
    (iblk (F := Ideal) m c 2 t : S1024x1024.Idx → EReal) y = (V m c main_v3 : S1024x1024.Idx → EReal) y := by
  have hi : win0_2.index t (0 : Fin 2) = 0 ∧ win0_2.index t (1 : Fin 2) = 0 :=
    (by decide +kernel : ∀ t : Fin grid0.N, win0_2.index t (0 : Fin 2) = 0 ∧ win0_2.index t (1 : Fin 2) = 0) t
  unfold iblk
  rw [View.read_apply]
  show V m c main_v3 _ = V m c main_v3 _
  congr 1
  funext a; apply Fin.ext
  match a with
  | ⟨0, _⟩ => show win0_2.index t (0 : Fin 2) * 1024 + 1 * (y 0).val = (y 0).val; rw [hi.1]; omega
  | ⟨1, _⟩ => show win0_2.index t (1 : Fin 2) * 1024 + 1 * (y 1).val = (y 1).val; rw [hi.2]; omega

/-- Entry (d, e) of the first weight block is entry (e, d) of the first weight matrix. -/
theorem blk2_apply (c : Dev nD) (t : Fin cfg0.N) (d e : Fin 1024) :
    (iblk (F := Ideal) m c 2 t : S1024x1024.Idx → EReal) (ix2 d e) = m ((c : Thread nD τ).loc main_arg2) (ix2 e d) :=
  (blk2_read m c t _).trans ((congrFun (V_v3 m c) _).trans (transpose_ix2_apply _ _ d e))

/-- Window 4 holds its whole array at every point. -/
theorem blk4_read (c : Dev nD) (t : Fin cfg0.N) (y : S1024x1024.Idx) :
    (iblk (F := Ideal) m c 4 t : S1024x1024.Idx → EReal) y = (V m c main_v5 : S1024x1024.Idx → EReal) y := by
  have hi : win0_4.index t (0 : Fin 2) = 0 ∧ win0_4.index t (1 : Fin 2) = 0 :=
    (by decide +kernel : ∀ t : Fin grid0.N, win0_4.index t (0 : Fin 2) = 0 ∧ win0_4.index t (1 : Fin 2) = 0) t
  unfold iblk
  rw [View.read_apply]
  show V m c main_v5 _ = V m c main_v5 _
  congr 1
  funext a; apply Fin.ext
  match a with
  | ⟨0, _⟩ => show win0_4.index t (0 : Fin 2) * 1024 + 1 * (y 0).val = (y 0).val; rw [hi.1]; omega
  | ⟨1, _⟩ => show win0_4.index t (1 : Fin 2) * 1024 + 1 * (y 1).val = (y 1).val; rw [hi.2]; omega

/-- Entry (d, e) of the second weight block is entry (e, d) of the second weight matrix. -/
theorem blk4_apply (c : Dev nD) (t : Fin cfg0.N) (d e : Fin 1024) :
    (iblk (F := Ideal) m c 4 t : S1024x1024.Idx → EReal) (ix2 d e) = m ((c : Thread nD τ).loc main_arg4) (ix2 e d) :=
  (blk4_read m c t _).trans ((congrFun (V_v5 m c) _).trans (transpose_ix2_apply _ _ d e))

/-- Window 6 holds its whole array at every point. -/
theorem blk6_read (c : Dev nD) (t : Fin cfg0.N) (y : S1024x1024.Idx) :
    (iblk (F := Ideal) m c 6 t : S1024x1024.Idx → EReal) y = (V m c main_v7 : S1024x1024.Idx → EReal) y := by
  have hi : win0_6.index t (0 : Fin 2) = 0 ∧ win0_6.index t (1 : Fin 2) = 0 :=
    (by decide +kernel : ∀ t : Fin grid0.N, win0_6.index t (0 : Fin 2) = 0 ∧ win0_6.index t (1 : Fin 2) = 0) t
  unfold iblk
  rw [View.read_apply]
  show V m c main_v7 _ = V m c main_v7 _
  congr 1
  funext a; apply Fin.ext
  match a with
  | ⟨0, _⟩ => show win0_6.index t (0 : Fin 2) * 1024 + 1 * (y 0).val = (y 0).val; rw [hi.1]; omega
  | ⟨1, _⟩ => show win0_6.index t (1 : Fin 2) * 1024 + 1 * (y 1).val = (y 1).val; rw [hi.2]; omega

/-- Entry (d, e) of the third weight block is entry (e, d) of the third weight matrix. -/
theorem blk6_apply (c : Dev nD) (t : Fin cfg0.N) (d e : Fin 1024) :
    (iblk (F := Ideal) m c 6 t : S1024x1024.Idx → EReal) (ix2 d e) = m ((c : Thread nD τ).loc main_arg6) (ix2 e d) :=
  (blk6_read m c t _).trans ((congrFun (V_v7 m c) _).trans (transpose_ix2_apply _ _ d e))

/-- Window 3 holds its whole array at every point. -/
theorem blk3_read (c : Dev nD) (t : Fin cfg0.N) (y : S1x1024.Idx) :
    (iblk (F := Ideal) m c 3 t : S1x1024.Idx → EReal) y = (V m c main_v8 : S1x1024.Idx → EReal) y := by
  have hi : win0_3.index t (0 : Fin 2) = 0 ∧ win0_3.index t (1 : Fin 2) = 0 :=
    (by decide +kernel : ∀ t : Fin grid0.N, win0_3.index t (0 : Fin 2) = 0 ∧ win0_3.index t (1 : Fin 2) = 0) t
  unfold iblk
  rw [View.read_apply]
  show V m c main_v8 _ = V m c main_v8 _
  congr 1
  funext a; apply Fin.ext
  match a with
  | ⟨0, _⟩ => show win0_3.index t (0 : Fin 2) * 1 + 1 * (y 0).val = (y 0).val; rw [hi.1]; omega
  | ⟨1, _⟩ => show win0_3.index t (1 : Fin 2) * 1024 + 1 * (y 1).val = (y 1).val; rw [hi.2]; omega

/-- Entry (0, e) of the first bias block is entry e of the first bias vector. -/
theorem blk3_apply (c : Dev nD) (t : Fin cfg0.N) (e : Fin 1024) :
    (iblk (F := Ideal) m c 3 t : S1x1024.Idx → EReal) (ix2 (0 : Fin 1) e) = m ((c : Thread nD τ).loc main_arg3) (ix1 e) :=
  (blk3_read m c t _).trans ((congrFun (V_v8 m c) _).trans (shapeCast_a_1a_apply _ _ (0 : Fin 1) e))

/-- Window 5 holds its whole array at every point. -/
theorem blk5_read (c : Dev nD) (t : Fin cfg0.N) (y : S1x1024.Idx) :
    (iblk (F := Ideal) m c 5 t : S1x1024.Idx → EReal) y = (V m c main_v9 : S1x1024.Idx → EReal) y := by
  have hi : win0_5.index t (0 : Fin 2) = 0 ∧ win0_5.index t (1 : Fin 2) = 0 :=
    (by decide +kernel : ∀ t : Fin grid0.N, win0_5.index t (0 : Fin 2) = 0 ∧ win0_5.index t (1 : Fin 2) = 0) t
  unfold iblk
  rw [View.read_apply]
  show V m c main_v9 _ = V m c main_v9 _
  congr 1
  funext a; apply Fin.ext
  match a with
  | ⟨0, _⟩ => show win0_5.index t (0 : Fin 2) * 1 + 1 * (y 0).val = (y 0).val; rw [hi.1]; omega
  | ⟨1, _⟩ => show win0_5.index t (1 : Fin 2) * 1024 + 1 * (y 1).val = (y 1).val; rw [hi.2]; omega

/-- Entry (0, e) of the second bias block is entry e of the second bias vector. -/
theorem blk5_apply (c : Dev nD) (t : Fin cfg0.N) (e : Fin 1024) :
    (iblk (F := Ideal) m c 5 t : S1x1024.Idx → EReal) (ix2 (0 : Fin 1) e) = m ((c : Thread nD τ).loc main_arg5) (ix1 e) :=
  (blk5_read m c t _).trans ((congrFun (V_v9 m c) _).trans (shapeCast_a_1a_apply _ _ (0 : Fin 1) e))

/-- Window 7 holds its whole array at every point. -/
theorem blk7_read (c : Dev nD) (t : Fin cfg0.N) (y : S1x1024.Idx) :
    (iblk (F := Ideal) m c 7 t : S1x1024.Idx → EReal) y = (V m c main_v10 : S1x1024.Idx → EReal) y := by
  have hi : win0_7.index t (0 : Fin 2) = 0 ∧ win0_7.index t (1 : Fin 2) = 0 :=
    (by decide +kernel : ∀ t : Fin grid0.N, win0_7.index t (0 : Fin 2) = 0 ∧ win0_7.index t (1 : Fin 2) = 0) t
  unfold iblk
  rw [View.read_apply]
  show V m c main_v10 _ = V m c main_v10 _
  congr 1
  funext a; apply Fin.ext
  match a with
  | ⟨0, _⟩ => show win0_7.index t (0 : Fin 2) * 1 + 1 * (y 0).val = (y 0).val; rw [hi.1]; omega
  | ⟨1, _⟩ => show win0_7.index t (1 : Fin 2) * 1024 + 1 * (y 1).val = (y 1).val; rw [hi.2]; omega

/-- Entry (0, e) of the third bias block is entry e of the third bias vector. -/
theorem blk7_apply (c : Dev nD) (t : Fin cfg0.N) (e : Fin 1024) :
    (iblk (F := Ideal) m c 7 t : S1x1024.Idx → EReal) (ix2 (0 : Fin 1) e) = m ((c : Thread nD τ).loc main_arg7) (ix1 e) :=
  (blk7_read m c t _).trans ((congrFun (V_v10 m c) _).trans (shapeCast_a_1a_apply _ _ (0 : Fin 1) e))

/-- Window 0 at point t holds batch t of its array. -/
theorem blk0_read (c : Dev nD) (t : Fin cfg0.N) (s d : Fin 1024) :
    (iblk (F := Ideal) m c 0 t : S1x1024x1024.Idx → EReal) (ix3 (0 : Fin 1) s d)
      = (V m c main_v0 : S16x1024x1024.Idx → EReal) (ix3 (batchOf t) s d) := by
  have hi : win0_0.index t (0 : Fin 3) = t.val ∧ win0_0.index t (1 : Fin 3) = 0 ∧ win0_0.index t (2 : Fin 3) = 0 :=
    (by decide +kernel : ∀ t : Fin grid0.N, win0_0.index t (0 : Fin 3) = t.val ∧ win0_0.index t (1 : Fin 3) = 0 ∧ win0_0.index t (2 : Fin 3) = 0) t
  unfold iblk
  rw [View.read_apply]
  show V m c main_v0 _ = V m c main_v0 _
  congr 1
  funext a; apply Fin.ext
  match a with
  | ⟨0, _⟩ => show win0_0.index t (0 : Fin 3) * 1 + 1 * 0 = t.val; rw [hi.1]; omega
  | ⟨1, _⟩ => show win0_0.index t (1 : Fin 3) * 1024 + 1 * s.val = s.val; rw [hi.2.1]; omega
  | ⟨2, _⟩ => show win0_0.index t (2 : Fin 3) * 1024 + 1 * d.val = d.val; rw [hi.2.2]; omega

/-- Entry (0, s, d) of the vision block at point t is entry (t, s, d) of the vision rows. -/
theorem blk0_apply (c : Dev nD) (t : Fin cfg0.N) (s d : Fin 1024) :
    (iblk (F := Ideal) m c 0 t : S1x1024x1024.Idx → EReal) (ix3 (0 : Fin 1) s d)
      = m ((c : Thread nD τ).loc main_arg0) (ix3 (batchOf t) s d) :=
  (blk0_read m c t s d).trans (congrFun (V_v0 m c) _)

/-- Window 1 at point t holds batch t of its array. -/
theorem blk1_read (c : Dev nD) (t : Fin cfg0.N) (s d : Fin 1024) :
    (iblk (F := Ideal) m c 1 t : S1x1024x1024.Idx → EReal) (ix3 (0 : Fin 1) s d)
      = (V m c main_v1 : S16x1024x1024.Idx → EReal) (ix3 (batchOf t) s d) := by
  have hi : win0_1.index t (0 : Fin 3) = t.val ∧ win0_1.index t (1 : Fin 3) = 0 ∧ win0_1.index t (2 : Fin 3) = 0 :=
    (by decide +kernel : ∀ t : Fin grid0.N, win0_1.index t (0 : Fin 3) = t.val ∧ win0_1.index t (1 : Fin 3) = 0 ∧ win0_1.index t (2 : Fin 3) = 0) t
  unfold iblk
  rw [View.read_apply]
  show V m c main_v1 _ = V m c main_v1 _
  congr 1
  funext a; apply Fin.ext
  match a with
  | ⟨0, _⟩ => show win0_1.index t (0 : Fin 3) * 1 + 1 * 0 = t.val; rw [hi.1]; omega
  | ⟨1, _⟩ => show win0_1.index t (1 : Fin 3) * 1024 + 1 * s.val = s.val; rw [hi.2.1]; omega
  | ⟨2, _⟩ => show win0_1.index t (2 : Fin 3) * 1024 + 1 * d.val = d.val; rw [hi.2.2]; omega

/-- Entry (0, s, d) of the text block at point t is entry (t, s, d) of the text rows. -/
theorem blk1_apply (c : Dev nD) (t : Fin cfg0.N) (s d : Fin 1024) :
    (iblk (F := Ideal) m c 1 t : S1x1024x1024.Idx → EReal) (ix3 (0 : Fin 1) s d)
      = m ((c : Thread nD τ).loc main_arg1) (ix3 (batchOf t) s d) :=
  (blk1_read m c t s d).trans (congrFun (V_v1 m c) _)

end Cert.KernelAttention

end
-- ==== Proof.KernelCover.lean ====
/-
  The two result arrays after the gridded region, from what each grid point leaves in its output block.

  Each of the two output windows writes, at grid point t, a block of one batch: batch t of its array.  Every point writes
  its block back and the sixteen blocks tile the array, so if the block point t leaves is batch t of a function G of the
  whole array's indices, the array ends holding G.
-/
import proofs.«158884_j75703093559626_2_alg».proof.Proof.Gen.KernelIdeal.Frame.Runs
import proofs.«158884_j75703093559626_2_alg».proof.Proof.KernelBlocks
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelAttention

open Cert.KernelIdeal Cert.KernelIdeal.Gen

/-! ## The first result -/

/-- The first output window's index map: point t's block is block t on the batch axis and block 0 on the other two. -/
theorem out_index_facts8 : ∀ t : Fin cfg0.N, win0_8.index t (0 : Fin 3) = t.val ∧ win0_8.index t (1 : Fin 3) = 0
    ∧ win0_8.index t (2 : Fin 3) = 0 :=
  (by decide +kernel : ∀ t : Fin grid0.N, _)

/-- Batch t of a function of the whole array's indices, read through point t's block. -/
theorem batch_read8 (G : S16x1024x1024.Idx → EReal) (t : Fin cfg0.N) (j : S1x1024x1024.Idx) :
    (((cfg0.win 8).blk t).view.read (Elt Ideal) G : S1x1024x1024.Idx → EReal) j = G (ix3 (batchOf t) (j 1) (j 2)) := by
  obtain ⟨e0, e1, e2⟩ := out_index_facts8 t
  rw [View.read_apply]
  show G _ = G _
  congr 1
  funext a; apply Fin.ext
  match a with
  | ⟨0, _⟩ => show win0_8.index t (0 : Fin 3) * 1 + 1 * (j 0).val = t.val; have hj : (j 0).val < 1 := (j 0).isLt; omega
  | ⟨1, _⟩ => show win0_8.index t (1 : Fin 3) * 1024 + 1 * (j 1).val = (j 1).val; omega
  | ⟨2, _⟩ => show win0_8.index t (2 : Fin 3) * 1024 + 1 * (j 2).val = (j 2).val; omega

/-- What point t writes back is batch t of G, when what it leaves in its block is. -/
theorem flushed8_eq {c : Dev nD} (dat : Dat τ (Elt Ideal) Unit ℕ (UR sig nD τ) ℕ cfg0 c) (G : S16x1024x1024.Idx → EReal)
    (h : ∀ (t : Fin cfg0.N) (s d : Fin 1024), (dat.after 8 t : S1x1024x1024.Idx → EReal) (ix3 (0 : Fin 1) s d) = G (ix3 (batchOf t) s d))
    (t : Fin cfg0.N) : dat.flushed 8 t = ((cfg0.win 8).blk t).view.read (Elt Ideal) G := by
  show (cfg0.win 8).cut (grid0.coords t) (dat.after 8 t) = _
  funext j
  have hj : (j : S1x1024x1024.Idx) = ix3 (0 : Fin 1) (j 1) (j 2) := funext fun a => by
    match a with
    | ⟨0, _⟩ => exact Fin.ext (by have hj0 : (j 0).val < 1 := (j 0).isLt; show (j 0).val = 0; omega)
    | ⟨1, _⟩ => rfl
    | ⟨2, _⟩ => rfl
  refine Eq.trans ?_ (batch_read8 G t j).symm
  show (dat.after 8 t : S1x1024x1024.Idx → EReal) j = _
  rw [hj]
  exact h t (j 1) (j 2)

/-- An index of the array is in point t's block iff each coordinate is in the block's range on its axis. -/
theorem batch_block_mem8 (t : Fin cfg0.N) (i : S16x1024x1024.Idx) :
    i ∈ ((cfg0.win 8).blk t).view.set ↔ ∀ a : Fin 3, win0_8.index t a * S1x1024x1024.size a ≤ (i a).val
      ∧ (i a).val < win0_8.index t a * S1x1024x1024.size a + S1x1024x1024.size a := by
  show i ∈ ((View.whole main_v11_0).slice (win0_8.rect t)).set ↔ _
  rw [View.set_slice_whole, Rect.mem_set_unit]
  exact Iff.rfl

/-- Every index of the array is in the block of the point whose number is the index's batch coordinate. -/
theorem every_index_covered8 (i : S16x1024x1024.Idx) :
    ∃ t : Fin cfg0.N, (cfg0.win 8).flush t = true ∧ i ∈ ((cfg0.win 8).blk t).view.set := by
  have hi0 : (i 0).val < 16 := (i 0).isLt
  have hi1 : (i 1).val < 1024 := (i 1).isLt
  have hi2 : (i 2).val < 1024 := (i 2).isLt
  obtain ⟨t, ht⟩ : ∃ t : Fin cfg0.N, t.val = (i 0).val :=
    ⟨⟨(i 0).val, lt_of_lt_of_eq hi0 (show 16 = cfg0.N from N_0.symm)⟩, rfl⟩
  obtain ⟨e0, e1, e2⟩ := out_index_facts8 t
  refine ⟨t, flush0_8 t, ?_⟩
  rw [batch_block_mem8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 1024 ≤ (i 2).val ∧ (i 2).val < win0_8.index t (2 : Fin 3) * 1024 + 1024; omega

/-- The first result array after the region is G, when each point leaves batch t of G in its block. -/
theorem arr8_eq {c : Dev nD} (dat : Dat τ (Elt Ideal) Unit ℕ (UR sig nD τ) ℕ cfg0 c) (G : S16x1024x1024.Idx → EReal)
    (h : ∀ (t : Fin cfg0.N) (s d : Fin 1024), (dat.after 8 t : S1x1024x1024.Idx → EReal) (ix3 (0 : Fin 1) s d) = G (ix3 (batchOf t) s d)) :
    dat.arrAt 8 cfg0.N = G :=
  dat.arrAt_eq_of_cover 8 G (fun t _ => flushed8_eq dat G h t) (fun i => every_index_covered8 i)

/-! ## The second result -/

/-- The second output window's index map: point t's block is block t on the batch axis and block 0 on the other two. -/
theorem out_index_facts9 : ∀ t : Fin cfg0.N, win0_9.index t (0 : Fin 3) = t.val ∧ win0_9.index t (1 : Fin 3) = 0
    ∧ win0_9.index t (2 : Fin 3) = 0 :=
  (by decide +kernel : ∀ t : Fin grid0.N, _)

/-- Batch t of a function of the whole array's indices, read through point t's block. -/
theorem batch_read9 (G : S16x1024x1024.Idx → EReal) (t : Fin cfg0.N) (j : S1x1024x1024.Idx) :
    (((cfg0.win 9).blk t).view.read (Elt Ideal) G : S1x1024x1024.Idx → EReal) j = G (ix3 (batchOf t) (j 1) (j 2)) := by
  obtain ⟨e0, e1, e2⟩ := out_index_facts9 t
  rw [View.read_apply]
  show G _ = G _
  congr 1
  funext a; apply Fin.ext
  match a with
  | ⟨0, _⟩ => show win0_9.index t (0 : Fin 3) * 1 + 1 * (j 0).val = t.val; have hj : (j 0).val < 1 := (j 0).isLt; omega
  | ⟨1, _⟩ => show win0_9.index t (1 : Fin 3) * 1024 + 1 * (j 1).val = (j 1).val; omega
  | ⟨2, _⟩ => show win0_9.index t (2 : Fin 3) * 1024 + 1 * (j 2).val = (j 2).val; omega

/-- What point t writes back is batch t of G, when what it leaves in its block is. -/
theorem flushed9_eq {c : Dev nD} (dat : Dat τ (Elt Ideal) Unit ℕ (UR sig nD τ) ℕ cfg0 c) (G : S16x1024x1024.Idx → EReal)
    (h : ∀ (t : Fin cfg0.N) (s d : Fin 1024), (dat.after 9 t : S1x1024x1024.Idx → EReal) (ix3 (0 : Fin 1) s d) = G (ix3 (batchOf t) s d))
    (t : Fin cfg0.N) : dat.flushed 9 t = ((cfg0.win 9).blk t).view.read (Elt Ideal) G := by
  show (cfg0.win 9).cut (grid0.coords t) (dat.after 9 t) = _
  funext j
  have hj : (j : S1x1024x1024.Idx) = ix3 (0 : Fin 1) (j 1) (j 2) := funext fun a => by
    match a with
    | ⟨0, _⟩ => exact Fin.ext (by have hj0 : (j 0).val < 1 := (j 0).isLt; show (j 0).val = 0; omega)
    | ⟨1, _⟩ => rfl
    | ⟨2, _⟩ => rfl
  refine Eq.trans ?_ (batch_read9 G t j).symm
  show (dat.after 9 t : S1x1024x1024.Idx → EReal) j = _
  rw [hj]
  exact h t (j 1) (j 2)

/-- An index of the array is in point t's block iff each coordinate is in the block's range on its axis. -/
theorem batch_block_mem9 (t : Fin cfg0.N) (i : S16x1024x1024.Idx) :
    i ∈ ((cfg0.win 9).blk t).view.set ↔ ∀ a : Fin 3, win0_9.index t a * S1x1024x1024.size a ≤ (i a).val
      ∧ (i a).val < win0_9.index t a * S1x1024x1024.size a + S1x1024x1024.size a := by
  show i ∈ ((View.whole main_v11_1).slice (win0_9.rect t)).set ↔ _
  rw [View.set_slice_whole, Rect.mem_set_unit]
  exact Iff.rfl

/-- Every index of the array is in the block of the point whose number is the index's batch coordinate. -/
theorem every_index_covered9 (i : S16x1024x1024.Idx) :
    ∃ t : Fin cfg0.N, (cfg0.win 9).flush t = true ∧ i ∈ ((cfg0.win 9).blk t).view.set := by
  have hi0 : (i 0).val < 16 := (i 0).isLt
  have hi1 : (i 1).val < 1024 := (i 1).isLt
  have hi2 : (i 2).val < 1024 := (i 2).isLt
  obtain ⟨t, ht⟩ : ∃ t : Fin cfg0.N, t.val = (i 0).val :=
    ⟨⟨(i 0).val, lt_of_lt_of_eq hi0 (show 16 = cfg0.N from N_0.symm)⟩, rfl⟩
  obtain ⟨e0, e1, e2⟩ := out_index_facts9 t
  refine ⟨t, flush0_9 t, ?_⟩
  rw [batch_block_mem9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 1024 ≤ (i 2).val ∧ (i 2).val < win0_9.index t (2 : Fin 3) * 1024 + 1024; omega

/-- The second result array after the region is G, when each point leaves batch t of G in its block. -/
theorem arr9_eq {c : Dev nD} (dat : Dat τ (Elt Ideal) Unit ℕ (UR sig nD τ) ℕ cfg0 c) (G : S16x1024x1024.Idx → EReal)
    (h : ∀ (t : Fin cfg0.N) (s d : Fin 1024), (dat.after 9 t : S1x1024x1024.Idx → EReal) (ix3 (0 : Fin 1) s d) = G (ix3 (batchOf t) s d)) :
    dat.arrAt 9 cfg0.N = G :=
  dat.arrAt_eq_of_cover 9 G (fun t _ => flushed9_eq dat G h t) (fun i => every_index_covered9 i)

end Cert.KernelAttention

end
-- ==== Proof.KernelRun.lean ====
/-
  The kernel's run, with both result arrays named.

  At grid point t the body works on batch b = t: its input blocks are the rows of batch b of the two argument arrays, the
  three weight matrices transposed and the three bias vectors as rows, so it leaves crossVision(b, ·, ·) and
  crossText(b, ·, ·) in the two outputs' buffers; point t's block of each output array is batch t of it, and the sixteen
  blocks cover the array; so after the run the two result arrays are the attention of the arguments, entry by entry, and
  the arguments are unchanged.
-/
import proofs.«158884_j75703093559626_2_alg».proof.Proof.KernelBody
import proofs.«158884_j75703093559626_2_alg».proof.Proof.KernelBlocks
import proofs.«158884_j75703093559626_2_alg».proof.Proof.KernelCover

set_option maxRecDepth 16384

noncomputable section

namespace Cert.KernelAttention

open Cert.KernelIdeal Cert.KernelIdeal.Gen Cert.KernelIdeal.GenP Cert.Attention Idealize.ShloMosaic Idealize.ShloMosaic.TcCoe
  Idealize.ShloMosaic.ValueIdx Idealize.SL.Sem

variable (m : (ℓ : Loc nD τ sig) → Buf (Elt Ideal) ℓ) (ρ : Dev nD → PrngReg)

/-- What the body leaves in the first output's buffer at point t: batch t of the weights applied to the values. -/
theorem after8_at (c : Dev nD) (t : Fin cfg0.N) (s d : Fin 1024) :
    ((dats m 0 c).after 8 t : S1x1024x1024.Idx → EReal) (ix3 (0 : Fin 1) s d)
      = crossVisionArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (batchOf t) s d) := by
  rw [after0_8]
  unfold outsAt0
  dsimp only
  exact body_out8 (ofIdx3 (m ((c : Thread nD τ).loc main_arg0))) (ofIdx3 (m ((c : Thread nD τ).loc main_arg1))) (ofIdx2 (m ((c : Thread nD τ).loc main_arg2))) (ofIdx1 (m ((c : Thread nD τ).loc main_arg3))) (ofIdx2 (m ((c : Thread nD τ).loc main_arg4))) (ofIdx1 (m ((c : Thread nD τ).loc main_arg5))) (ofIdx2 (m ((c : Thread nD τ).loc main_arg6))) (ofIdx1 (m ((c : Thread nD τ).loc main_arg7))) (batchOf t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (iblk m c 0 t) (iblk m c 1 t) (iblk m c 2 t) (iblk m c 3 t) (iblk m c 4 t) (iblk m c 5 t) (iblk m c 6 t) (iblk m c 7 t)
    (blk0_apply m c t) (blk1_apply m c t) (blk2_apply m c t) (blk3_apply m c t) (blk4_apply m c t) (blk5_apply m c t)
    (blk6_apply m c t) (blk7_apply m c t) 0 s d

/-- What the body leaves in the second output's buffer at point t: batch t of the transposed weights applied to the vision rows. -/
theorem after9_at (c : Dev nD) (t : Fin cfg0.N) (s d : Fin 1024) :
    ((dats m 0 c).after 9 t : S1x1024x1024.Idx → EReal) (ix3 (0 : Fin 1) s d)
      = crossTextArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (batchOf t) s d) := by
  rw [after0_9]
  unfold outsAt0
  dsimp only
  exact body_out9 (ofIdx3 (m ((c : Thread nD τ).loc main_arg0))) (ofIdx3 (m ((c : Thread nD τ).loc main_arg1))) (ofIdx2 (m ((c : Thread nD τ).loc main_arg2))) (ofIdx1 (m ((c : Thread nD τ).loc main_arg3))) (ofIdx2 (m ((c : Thread nD τ).loc main_arg4))) (ofIdx1 (m ((c : Thread nD τ).loc main_arg5))) (batchOf t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (iblk m c 0 t) (iblk m c 1 t) (iblk m c 2 t) (iblk m c 3 t) (iblk m c 4 t) (iblk m c 5 t) (iblk m c 6 t) (iblk m c 7 t)
    (blk0_apply m c t) (blk1_apply m c t) (blk2_apply m c t) (blk3_apply m c t) (blk4_apply m c t) (blk5_apply m c t) 0 s d

/-- THE KERNEL'S RUN: every weakly fair execution terminates with the two result arrays at the attention of the argument
    arrays, and the arguments unchanged. -/
theorem kernel_run : θ_run defs (onTc (τ := τ) (main (F := Ideal))) ⟨m, fun _ => 0, ρ⟩ fun r => ∀ c : Dev nD,
      r.2.mem ((c : Thread nD τ).loc main_v11_0) = crossVisionArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v11_1) = crossTextArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨
      ((h c).1 8).trans (arr8_eq (dats m 0 c) _ (fun t s d => after8_at m c t s d)),
      ((h c).1 9).trans (arr9_eq (dats m 0 c) _ (fun t s d => after9_at m c t s d)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelAttention

end
-- ==== Proof.RefAttention.lean ====
/-
  The reference program's two results are scaled dot-product cross-attention, entry by entry.

  Each stage of the reference is read at coordinates (b, s, t) and identified with the corresponding quantity of the
  specification: the three linear layers, the scaled score, the row maximum, the exponential, the row sum, the weight,
  and the two final products.
-/
import proofs.«158884_j75703093559626_2_alg».proof.Proof.Gen.ReferenceIdeal.Read
import proofs.«158884_j75703093559626_2_alg».proof.Proof.Attention

noncomputable section

open scoped BigOperators

namespace Cert.RefAttention

open Cert.ReferenceIdeal Cert.ReferenceIdeal.Read Cert.Attention Idealize.ShloMosaic Idealize.ShloMosaic.ValueIdx

/-- The argument arrays' types: a batch of matrices, a matrix, a vector. -/
abbrev T3 := (⟨S16x1024x1024, .f32⟩ : BufTy).Contents (Elt Ideal)
abbrev T2 := (⟨S1024x1024, .f32⟩ : BufTy).Contents (Elt Ideal)
abbrev T1 := (⟨S1024, .f32⟩ : BufTy).Contents (Elt Ideal)

/-! ## The linear layers -/

/-- The queries: entry (b, s, e) of the first linear layer. -/
theorem lin_q (x0 : T3) (x2 : T2) (x3 : T1) (b : Fin 16) (s e : Fin 1024) :
    val_main_v3 (F := Ideal) x0 x2 x3 (ix3 b s e) = lin (ofIdx3 x0) (ofIdx2 x2) (ofIdx1 x3) b s e := by
  rw [val_main_v3_apply, val_main_v0_apply, val_main_v2_apply, val_main_v1_apply, Ideal.addf_def]
  have e1 : ∀ k : Fin 1024, lidx_main_v0 (ix3 b s e) k = ix3 b s k := fun k =>
    funext fun a => by match a with | ⟨0, _⟩ => rfl | ⟨1, _⟩ => rfl | ⟨2, _⟩ => rfl
  have e2 : ∀ k : Fin 1024, ridx_main_v0 (ix3 b s e) k = ix2 e k := fun k =>
    funext fun a => by match a with | ⟨0, _⟩ => rfl | ⟨1, _⟩ => rfl
  have e3 : idx_main_v1 (idx_main_v2 (ix3 b s e)) = ix1 e :=
    funext fun a => by match a with | ⟨0, _⟩ => rfl
  rw [e3]
  simp only [e1, e2]
  rfl

/-- The keys: entry (b, t, e) of the second linear layer. -/
theorem lin_k (x1 : T3) (x4 : T2) (x5 : T1) (b : Fin 16) (t e : Fin 1024) :
    val_main_v7 (F := Ideal) x1 x4 x5 (ix3 b t e) = lin (ofIdx3 x1) (ofIdx2 x4) (ofIdx1 x5) b t e := by
  rw [val_main_v7_apply, val_main_v4_apply, val_main_v6_apply, val_main_v5_apply, Ideal.addf_def]
  have e1 : ∀ k : Fin 1024, lidx_main_v4 (ix3 b t e) k = ix3 b t k := fun k =>
    funext fun a => by match a with | ⟨0, _⟩ => rfl | ⟨1, _⟩ => rfl | ⟨2, _⟩ => rfl
  have e2 : ∀ k : Fin 1024, ridx_main_v4 (ix3 b t e) k = ix2 e k := fun k =>
    funext fun a => by match a with | ⟨0, _⟩ => rfl | ⟨1, _⟩ => rfl
  have e3 : idx_main_v5 (idx_main_v6 (ix3 b t e)) = ix1 e :=
    funext fun a => by match a with | ⟨0, _⟩ => rfl
  rw [e3]
  simp only [e1, e2]
  rfl

/-- The values: entry (b, t, d) of the third linear layer. -/
theorem lin_v (x1 : T3) (x6 : T2) (x7 : T1) (b : Fin 16) (t d : Fin 1024) :
    val_main_v11 (F := Ideal) x1 x6 x7 (ix3 b t d) = lin (ofIdx3 x1) (ofIdx2 x6) (ofIdx1 x7) b t d := by
  rw [val_main_v11_apply, val_main_v8_apply, val_main_v10_apply, val_main_v9_apply, Ideal.addf_def]
  have e1 : ∀ k : Fin 1024, lidx_main_v8 (ix3 b t d) k = ix3 b t k := fun k =>
    funext fun a => by match a with | ⟨0, _⟩ => rfl | ⟨1, _⟩ => rfl | ⟨2, _⟩ => rfl
  have e2 : ∀ k : Fin 1024, ridx_main_v8 (ix3 b t d) k = ix2 d k := fun k =>
    funext fun a => by match a with | ⟨0, _⟩ => rfl | ⟨1, _⟩ => rfl
  have e3 : idx_main_v9 (idx_main_v10 (ix3 b t d)) = ix1 d :=
    funext fun a => by match a with | ⟨0, _⟩ => rfl
  rw [e3]
  simp only [e1, e2]
  rfl

/-! ## The scaled scores -/

/-- The score of vision row s against text row t: the inner product of a query and a key over the square root of
    the float 1024, which is the product with the float 2⁻⁵. -/
theorem score_ref (x0 x1 : T3) (x2 : T2) (x3 : T1) (x4 : T2) (x5 : T1) (b : Fin 16) (s t : Fin 1024) :
    val_main_v15 (F := Ideal) x0 x1 x2 x3 x4 x5 (ix3 b s t)
      = score scale (ofIdx3 x0) (ofIdx3 x1) (ofIdx2 x2) (ofIdx1 x3) (ofIdx2 x4) (ofIdx1 x5) b s t := by
  rw [val_main_v15_apply, val_main_v12_apply, val_main_v14_apply, val_main_v13_apply, val_main_cst_apply,
    Ideal.hostDivf_def, Ideal.hostUnary_sqrt_def, Ideal.ofBits_def, div_sqrt_1024]
  have e1 : ∀ k : Fin 1024, lidx_main_v12 (ix3 b s t) k = ix3 b s k := fun k =>
    funext fun a => by match a with | ⟨0, _⟩ => rfl | ⟨1, _⟩ => rfl | ⟨2, _⟩ => rfl
  have e2 : ∀ k : Fin 1024, ridx_main_v12 (ix3 b s t) k = ix3 b t k := fun k =>
    funext fun a => by match a with | ⟨0, _⟩ => rfl | ⟨1, _⟩ => rfl | ⟨2, _⟩ => rfl
  unfold score
  refine congrArg (· * _) (Finset.sum_congr rfl fun k _ => ?_)
  rw [e1 k, e2 k, lin_q, lin_k]

/-! ## The row maxima -/

/-- A reduced index (b, s) with the coordinate k put back on the last axis is (b, s, k). -/
theorem lift_ix3 (h : S16x1024x1024.Reduces [2] S16x1024) (b : Fin 16) (s : Fin 1024)
    (k : Fin (S16x1024x1024.size 2)) : h.lift (ix2 b s) k = ix3 b s (⟨k.val, k.isLt⟩ : Fin 1024) := by
  funext c; apply Fin.ext
  match c with | ⟨0, _⟩ => rfl | ⟨1, _⟩ => rfl | ⟨2, _⟩ => rfl

/-- The fold of the maximum over a row of scores from −∞ is the row maximum. -/
theorem max_v16 (x0 x1 : T3) (x2 : T2) (x3 : T1) (x4 : T2) (x5 : T1) (b : Fin 16) (s : Fin 1024) :
    val_main_v16 (F := Ideal) x0 x1 x2 x3 x4 x5 (ix2 b s)
      = rowMax (fun t => score scale (ofIdx3 x0) (ofIdx3 x1) (ofIdx2 x2) (ofIdx1 x3) (ofIdx2 x4) (ofIdx1 x5) b s t) := by
  have h : S16x1024x1024.Reduces [2] S16x1024 := by decide
  unfold val_main_v16
  rw [Host.reduce_eq_fold_single FloatOps.maximumf _ _ Gen.reducesTo_S16x1024x1024_S16x1024_d2 h Gen.h_S_]
  have hf : (val_main_v15 (F := Ideal) x0 x1 x2 x3 x4 x5 ∘ h.lift (ix2 b s))
      = fun t : Fin 1024 => score scale (ofIdx3 x0) (ofIdx3 x1) (ofIdx2 x2) (ofIdx1 x3) (ofIdx2 x4) (ofIdx1 x5) b s t :=
    funext fun k => by
      show val_main_v15 (F := Ideal) x0 x1 x2 x3 x4 x5 (h.lift (ix2 b s) k) = _
      rw [lift_ix3 h b s k, score_ref]
      rfl
  exact congrArg (fun f => Finset.fold max negInf f (Finset.univ : Finset (Fin 1024))) hf

/-- The row maximum the reference subtracts: its extra maximum against −∞ changes nothing. -/
theorem rowMax_ref (x0 x1 : T3) (x2 : T2) (x3 : T1) (x4 : T2) (x5 : T1) (b : Fin 16) (s : Fin 1024) :
    val_main_v18 (F := Ideal) x0 x1 x2 x3 x4 x5 (ix2 b s)
      = rowMax (fun t => score scale (ofIdx3 x0) (ofIdx3 x1) (ofIdx2 x2) (ofIdx1 x3) (ofIdx2 x4) (ofIdx1 x5) b s t) := by
  rw [val_main_v18_apply, val_main_v17_apply, val_main_cst_1_apply, Ideal.maximumf_def, Ideal.ofBits_def, max_v16]
  exact max_negInf_rowMax _

/-! ## The exponentials, the row sums and the weights -/

/-- The exponential of a score less its row's maximum. -/
theorem expo_ref (x0 x1 : T3) (x2 : T2) (x3 : T1) (x4 : T2) (x5 : T1) (b : Fin 16) (s t : Fin 1024) :
    val_main_v22 (F := Ideal) x0 x1 x2 x3 x4 x5 (ix3 b s t)
      = expo scale (ofIdx3 x0) (ofIdx3 x1) (ofIdx2 x2) (ofIdx1 x3) (ofIdx2 x4) (ofIdx1 x5) b s t := by
  rw [val_main_v22_apply, val_main_v21_apply, val_main_v20_apply, val_main_v19_apply, Ideal.hostUnary_exp_def,
    Ideal.subf_def, score_ref]
  have e : idx_main_v19 (idx_main_v20 (ix3 b s t)) = ix2 b s :=
    funext fun a => by match a with | ⟨0, _⟩ => rfl | ⟨1, _⟩ => rfl
  rw [e, rowMax_ref]
  rfl

/-- The sum of a row of exponentials; the sum starts from the float zero, which is the real zero. -/
theorem sum_ref (x0 x1 : T3) (x2 : T2) (x3 : T1) (x4 : T2) (x5 : T1) (b : Fin 16) (s : Fin 1024) :
    val_main_v23 (F := Ideal) x0 x1 x2 x3 x4 x5 (ix2 b s)
      = ∑ t' : Fin 1024, expo scale (ofIdx3 x0) (ofIdx3 x1) (ofIdx2 x2) (ofIdx1 x3) (ofIdx2 x4) (ofIdx1 x5) b s t' := by
  rw [val_main_v23_apply, val_main_cst_2_apply, Ideal.ofBits_def, Ideal.ofBits_zero_f32, zero_add]
  refine Finset.sum_congr rfl fun k _ => ?_
  have e : idx_main_v23 (ix2 b s) k = ix3 b s k :=
    funext fun a => by match a with | ⟨0, _⟩ => rfl | ⟨1, _⟩ => rfl | ⟨2, _⟩ => rfl
  rw [e, expo_ref]

/-- The attention weight: the exponential over its row's sum. -/
theorem weight_ref (x0 x1 : T3) (x2 : T2) (x3 : T1) (x4 : T2) (x5 : T1) (b : Fin 16) (s t : Fin 1024) :
    val_main_v26 (F := Ideal) x0 x1 x2 x3 x4 x5 (ix3 b s t)
      = weight scale (ofIdx3 x0) (ofIdx3 x1) (ofIdx2 x2) (ofIdx1 x3) (ofIdx2 x4) (ofIdx1 x5) b s t := by
  rw [val_main_v26_apply, val_main_v25_apply, val_main_v24_apply, Ideal.hostDivf_def, expo_ref]
  have e : idx_main_v24 (idx_main_v25 (ix3 b s t)) = ix2 b s :=
    funext fun a => by match a with | ⟨0, _⟩ => rfl | ⟨1, _⟩ => rfl
  rw [e, sum_ref]
  rfl

/-! ## The two results -/

/-- The first result at (b, s, d): the weights of row s applied to the values. -/
theorem vision_at (x0 x1 : T3) (x2 : T2) (x3 : T1) (x4 : T2) (x5 : T1) (x6 : T2) (x7 : T1) (b : Fin 16) (s d : Fin 1024) :
    val_main_v27 (F := Ideal) x0 x1 x2 x3 x4 x5 x6 x7 (ix3 b s d)
      = crossVision scale (ofIdx3 x0) (ofIdx3 x1) (ofIdx2 x2) (ofIdx1 x3) (ofIdx2 x4) (ofIdx1 x5) (ofIdx2 x6) (ofIdx1 x7) b s d := by
  rw [val_main_v27_apply]
  unfold crossVision
  refine Finset.sum_congr rfl fun k _ => ?_
  have e1 : lidx_main_v27 (ix3 b s d) k = ix3 b s k :=
    funext fun a => by match a with | ⟨0, _⟩ => rfl | ⟨1, _⟩ => rfl | ⟨2, _⟩ => rfl
  have e2 : ridx_main_v27 (ix3 b s d) k = ix3 b k d :=
    funext fun a => by match a with | ⟨0, _⟩ => rfl | ⟨1, _⟩ => rfl | ⟨2, _⟩ => rfl
  rw [e1, e2, weight_ref, lin_v]

/-- The second result at (b, t, d): the weights of column t applied to the vision rows. -/
theorem text_at (x0 x1 : T3) (x2 : T2) (x3 : T1) (x4 : T2) (x5 : T1) (b : Fin 16) (t d : Fin 1024) :
    val_main_v28 (F := Ideal) x0 x1 x2 x3 x4 x5 (ix3 b t d)
      = crossText scale (ofIdx3 x0) (ofIdx3 x1) (ofIdx2 x2) (ofIdx1 x3) (ofIdx2 x4) (ofIdx1 x5) b t d := by
  rw [val_main_v28_apply]
  unfold crossText
  refine Finset.sum_congr rfl fun k _ => ?_
  have e1 : lidx_main_v28 (ix3 b t d) k = ix3 b k t :=
    funext fun a => by match a with | ⟨0, _⟩ => rfl | ⟨1, _⟩ => rfl | ⟨2, _⟩ => rfl
  have e2 : ridx_main_v28 (ix3 b t d) k = ix3 b k d :=
    funext fun a => by match a with | ⟨0, _⟩ => rfl | ⟨1, _⟩ => rfl | ⟨2, _⟩ => rfl
  rw [e1, e2, weight_ref]
  rfl

/-- The reference's first result is the weights applied to the values, as one array. -/
theorem ref_crossVision (x0 x1 : (⟨S16x1024x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) :
    val_main_v27 (F := Ideal) x0 x1 x2 x3 x4 x5 x6 x7 = crossVisionArr x0 x1 x2 x3 x4 x5 x6 x7 := by
  funext i
  obtain ⟨b, s, d, rfl⟩ : ∃ (b : Fin 16) (s d : Fin 1024), i = ix3 b s d := ⟨i 0, i 1, i 2, eq_ix3 i⟩
  exact vision_at x0 x1 x2 x3 x4 x5 x6 x7 b s d

/-- The reference's second result is the transposed weights applied to the vision rows, as one array. -/
theorem ref_crossText (x0 x1 : (⟨S16x1024x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) :
    val_main_v28 (F := Ideal) x0 x1 x2 x3 x4 x5 = crossTextArr x0 x1 x2 x3 x4 x5 := by
  funext i
  obtain ⟨b, t, d, rfl⟩ : ∃ (b : Fin 16) (t d : Fin 1024), i = ix3 b t d := ⟨i 0, i 1, i 2, eq_ix3 i⟩
  exact text_at x0 x1 x2 x3 x4 x5 b t d

end Cert.RefAttention

end
-- ==== Proof.lean ====
/-
  Cross-attention as one kernel against its jnp reference: the kernel's two result arrays are the reference's, entry by
  entry, over the extended reals.

  Both programs compute, per batch b, the queries q = X0·Wqᵀ + bq of the vision rows and the keys k = X1·Wkᵀ + bk and
  values v = X1·Wvᵀ + bv of the text rows, the scores q·kᵀ scaled by 1/√1024, the softmax of each row of scores
  (exponentials of the scores less the row's maximum, over their sum), the weights applied to the values, and the
  transposed weights applied to the vision rows (Proof/Attention.lean states this once, by coordinates). The kernel takes
  the batches as grid points, casts its operands to a shorter float format (the identity on extended reals), takes the
  weight matrices transposed, works on 128 vision rows at a time in a loop that also keeps each chunk's weights in a
  scratch matrix, and forms the second result from that scratch after the loop; it multiplies the scores by the float
  2⁻⁵ where the reference divides them by the square root of the float 1024 — one function of an extended real, since
  1024 = 32² (`Attention.div_sqrt_1024`). Sums are finite sums of extended reals in both, so their order and the tiling do
  not matter, and no step uses that the inputs are finite.

  The reference's two results are the specification by Proof/RefAttention.lean (over the generated run and its
  read-at-an-index lemmas); the kernel's by Proof/KernelRun.lean: the body's arithmetic stage by stage
  (KernelStages, KernelPayloads), the loop's stores (KernelPieces, KernelLoop), the body's two buffers (KernelBody), the
  input blocks through the host's casts, transposes and reshapes (KernelBlocks) and the sixteen blocks of each result
  array (KernelCover). The three frames are the generated ones; the idealization rewrote nothing, so `preserves` is `True`.
-/
import proofs.«158884_j75703093559626_2_alg».proof.Defs
import proofs.«158884_j75703093559626_2_alg».proof.Proof.Gen.Kernel
import proofs.«158884_j75703093559626_2_alg».proof.Proof.Gen.KernelIdeal
import proofs.«158884_j75703093559626_2_alg».proof.Proof.Gen.ReferenceIdeal
import proofs.«158884_j75703093559626_2_alg».proof.Proof.Gen.Pre_finite_inputs
import proofs.«158884_j75703093559626_2_alg».proof.Proof.Gen.ReferenceIdeal.Run
import proofs.«158884_j75703093559626_2_alg».proof.Proof.Gen.ReferenceIdeal.Read
import proofs.«158884_j75703093559626_2_alg».proof.Proof.KernelFrame
import proofs.«158884_j75703093559626_2_alg».proof.Proof.KernelIdealFrame
import proofs.«158884_j75703093559626_2_alg».proof.Proof.KernelRun
import proofs.«158884_j75703093559626_2_alg».proof.Proof.RefAttention
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the attention of the arguments in their two result arrays: the kernel by its run, the reference
    by its run read as the specification at arguments that agree. -/
theorem algebraic : Cert.algebraic_KernelIdeal_ReferenceIdeal := by
  intro m ρ m' ρ' _ hagree
  refine ⟨_, _, Cert.KernelAttention.kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v27_eq, Cert.RefAttention.ref_crossVision,
      (hagree c).1, (hagree c).2.1, (hagree c).2.2.1, (hagree c).2.2.2.1, (hagree c).2.2.2.2.1,
      (hagree c).2.2.2.2.2.1, (hagree c).2.2.2.2.2.2.1, (hagree c).2.2.2.2.2.2.2]
  · rw [Cert.ReferenceIdeal.Read.val_main_v28_eq, Cert.RefAttention.ref_crossText,
      (hagree c).1, (hagree c).2.1, (hagree c).2.2.1, (hagree c).2.2.2.1, (hagree c).2.2.2.2.1,
      (hagree c).2.2.2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
